-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x4096 : Shape := ⟨3, ![8, 512, 4096]⟩
abbrev S4096x4096 : Shape := ⟨2, ![4096, 4096]⟩
abbrev S1x4096 : Shape := ⟨2, ![1, 4096]⟩
abbrev S16x4096 : Shape := ⟨2, ![16, 4096]⟩
abbrev S_ : Shape := ⟨0, ![]⟩

class Facts : Prop where
  bcast_S_S8x512x4096 : S_.BroadcastsInDim S8x512x4096 (![] : Fin 0 → Fin S8x512x4096.rank)
  reducesTo_S8x512x4096_S_d0_1_2 : S8x512x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1x4096 : S_.BroadcastsInDim S1x4096 (![] : Fin 0 → Fin S1x4096.rank)
  reducesTo_S1x4096_S_d0_1 : S1x4096.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  main_v23

def fn {F : FTy → Type} [FloatOps F] (main_arg0 : FVec F S8x512x4096 .f32) (main_arg1 : FVec F S4096x4096 .f32) (main_arg2 : FVec F S1x4096 .f32) (main_arg3 : FVec F S16x4096 .f32) (main_arg4 : FVec F S16x4096 .f32) : IVec S_ 1 :=
  let main_v0 : FVec F S8x512x4096 .f32 := Host.absf main_arg0
  let main_cst : FVec F S_ .f32 := constant S_ .f32 0x7F800000#32
  let main_v1 : FVec F S8x512x4096 .f32 := broadcastInDim S8x512x4096 ![] bcast_S_S8x512x4096 main_cst
  let main_v2 : IVec S8x512x4096 1 := cmpf .olt main_v0 main_v1
  let main_c : IVec S_ 1 := constantI S_ 1 1#1
  let main_v3 : IVec S_ 1 := (fun x v => Host.reduce IntOp.andi x v reducesTo_S8x512x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S1x4096 .f32 := Host.absf main_arg2
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S8x512x4096 : Shape := ⟨3, ![8, 512, 4096]⟩
abbrev S4096x4096 : Shape := ⟨2, ![4096, 4096]⟩
abbrev S1x4096 : Shape := ⟨2, ![1, 4096]⟩
abbrev S16x4096 : Shape := ⟨2, ![16, 4096]⟩
abbrev S4096x8x512 : Shape := ⟨3, ![4096, 8, 512]⟩
abbrev S8x4096x512 : Shape := ⟨3, ![8, 4096, 512]⟩
abbrev S4096x16 : Shape := ⟨2, ![4096, 16]⟩
abbrev S1024x4096 : Shape := ⟨2, ![1024, 4096]⟩
abbrev S1x4096x512 : Shape := ⟨3, ![1, 4096, 512]⟩
abbrev S16x512 : Shape := ⟨2, ![16, 512]⟩
abbrev S1x512 : Shape := ⟨2, ![1, 512]⟩
abbrev S1024x512 : Shape := ⟨2, ![1024, 512]⟩
abbrev S1024x16 : Shape := ⟨2, ![1024, 16]⟩
abbrev S4096x512 : Shape := ⟨2, ![4096, 512]⟩

abbrev nBuf : Space → Nat
  | .hbm => 14
  | .vmem => 12
  | .smem => 0
  | _ => 0

abbrev bufTy : (tb : Table) → Fin (tcTables nBuf tb) → BufTy
  | .hbm, ⟨0, _⟩ => ⟨S8x512x4096, .f32⟩
  | .hbm, ⟨1, _⟩ => ⟨S4096x4096, .f32⟩
  | .hbm, ⟨2, _⟩ => ⟨S1x4096, .f32⟩
  | .hbm, ⟨3, _⟩ => ⟨S16x4096, .f32⟩
  | .hbm, ⟨4, _⟩ => ⟨S16x4096, .f32⟩
  | .hbm, ⟨5, _⟩ => ⟨S4096x4096, .f32⟩
  | .hbm, ⟨6, _⟩ => ⟨S4096x8x512, .f32⟩
  | .hbm, ⟨7, _⟩ => ⟨S8x4096x512, .f32⟩
  | .hbm, ⟨8, _⟩ => ⟨S8x4096x512, .bf16⟩
  | .hbm, ⟨9, _⟩ => ⟨S4096x16, .f32⟩
  | .hbm, ⟨10, _⟩ => ⟨S4096x16, .bf16⟩
  | .hbm, ⟨11, _⟩ => ⟨S16x4096, .bf16⟩
  | .hbm, ⟨12, _⟩ => ⟨S4096x4096, .f32⟩
  | .hbm, ⟨13, _⟩ => ⟨S8x512x4096, .f32⟩
  | .local _ .vmem, ⟨0, _⟩ => ⟨S1024x4096, .f32⟩
  | .local _ .vmem, ⟨1, _⟩ => ⟨S1024x4096, .f32⟩
  | .local _ .vmem, ⟨2, _⟩ => ⟨S1x4096x512, .bf16⟩
  | .local _ .vmem, ⟨3, _⟩ => ⟨S1x4096x512, .bf16⟩
  | .local _ .vmem, ⟨4, _⟩ => ⟨S4096x16, .bf16⟩
  | .local _ .vmem, ⟨5, _⟩ => ⟨S16x512, .bf16⟩
  | .local _ .vmem, ⟨6, _⟩ => ⟨S16x512, .bf16⟩
  | .local _ .vmem, ⟨7, _⟩ => ⟨S1x512, .f32⟩
  | .local _ .vmem, ⟨8, _⟩ => ⟨S1x512, .f32⟩
  | .local _ .vmem, ⟨9, _⟩ => ⟨S1024x512, .f32⟩
  | .local _ .vmem, ⟨10, _⟩ => ⟨S1024x512, .f32⟩
  | .local _ .vmem, ⟨11, _⟩ => ⟨S1024x16, .bf16⟩
  | _, _ => ⟨S8x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4096x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S8x512x4096_S4096x4096 : S8x512x4096.ShapeCasts S4096x4096
  shapeCasts_S4096x4096_S4096x8x512 : S4096x4096.ShapeCasts S4096x8x512
  transposes_S4096x8x512_S8x4096x512_1_0_2 : S4096x8x512.Transposes [1, 0, 2] S8x4096x512
  bitsLt_bf16_f32 : FTy.bits .bf16 < FTy.bits .f32
  transposes_S16x4096_S4096x16_1_0 : S16x4096.Transposes [1, 0] S4096x16
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  packedbf16_S1024x16_S1024x16_0_0 : (Rect.unit (s := S1024x16) ![0, 0] S1024x16.size inb_S1024x16_S1024x16_0_0).PackedRows (EltTy.packing .bf16)
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S1x512_S1x512_0_0 : ∀ a, (![0, 0] : Fin 2 → Nat) a + S1x512.size a ≤ S1x512.size a
  h_S1x512 : 0 < S1x512.numel
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S4096x4096_S8x512x4096 : S4096x4096.ShapeCasts S8x512x4096
  dot_S1024x4096_S4096x16_S1024x16_1_0_0_1_n_n_wf : DotDims.WF S1024x4096 S4096x16 S1024x16 [1] [0] [0] [1] [] []
  dot_S1024x4096_S4096x512_S1024x512_1_0_0_1_n_n_wf : DotDims.WF S1024x4096 S4096x512 S1024x512 [1] [0] [0] [1] [] []
  dot_S1024x16_S16x512_S1024x512_1_0_0_1_n_n_wf : DotDims.WF S1024x16 S16x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .f32 = 32 ∨ (Rect.block (s := S4096x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x512.size a ≤ S8x4096x512.size a
  hwx0_1 : ∀ i : grid0.Coords, EltTy.bits .bf16 = 32 ∨ (Rect.block (s := S8x4096x512) S1x4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x16.size a ≤ S4096x16.size a
  hwx0_2 : ∀ i : grid0.Coords, EltTy.bits .bf16 = 32 ∨ (Rect.block (s := S4096x16) S4096x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512.size a ≤ S16x4096.size a
  hwx0_3 : ∀ i : grid0.Coords, EltTy.bits .bf16 = 32 ∨ (Rect.block (s := S16x4096) S16x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S4096x4096.size a
  hwx0_5 : ∀ i : grid0.Coords, EltTy.bits .f32 = 32 ∨ (Rect.block (s := S4096x4096) S1024x512.size (cc0_transform_5 i) (hinb0_5 i)).WholeWords (EltTy.packing .f32)

variable [Facts₀]

def dot_S1024x4096_S4096x16_S1024x16_1_0_0_1_n_n : DotDims S1024x4096 S4096x16 S1024x16 where
  lhsContracting := [1]
  rhsContracting := [0]
  lhsNonContracting := [0]
  rhsNonContracting := [1]
  lhsBatch := []
  rhsBatch := []
  wf := dot_S1024x4096_S4096x16_S1024x16_1_0_0_1_n_n_wf
def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf
def dot_S1024x16_S16x512_S1024x512_1_0_0_1_n_n : DotDims S1024x16 S16x512 S1024x512 where
  lhsContracting := [1]
  rhsContracting := [0]
  lhsNonContracting := [0]
  rhsNonContracting := [1]
  lhsBatch := []
  rhsBatch := []
  wf := dot_S1024x16_S16x512_S1024x512_1_0_0_1_n_n_wf

abbrev win0_0 : Pipeline.Window sig grid0 :=
  Pipeline.Window.ofSpec (Memref.whole main_v0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4096x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S16x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x512x4096 : Shape := ⟨3, ![8, 512, 4096]⟩
abbrev S4096x4096 : Shape := ⟨2, ![4096, 4096]⟩
abbrev S1x4096 : Shape := ⟨2, ![1, 4096]⟩
abbrev S16x4096 : Shape := ⟨2, ![16, 4096]⟩
abbrev S_ : Shape := ⟨0, ![]⟩
abbrev S4096x16 : Shape := ⟨2, ![4096, 16]⟩
abbrev S512x16 : Shape := ⟨2, ![512, 16]⟩
abbrev S512x1024 : Shape := ⟨2, ![512, 1024]⟩
abbrev S1024x512 : Shape := ⟨2, ![1024, 512]⟩
abbrev S16x512 : Shape := ⟨2, ![16, 512]⟩
abbrev S1x512 : Shape := ⟨2, ![1, 512]⟩
abbrev S512x512 : Shape := ⟨2, ![512, 512]⟩

abbrev nBuf : Space → Nat
  | .hbm => 16
  | .vmem => 13
  | .smem => 0
  | _ => 0

abbrev bufTy : (tb : Table) → Fin (tcTables nBuf tb) → BufTy
  | .hbm, ⟨0, _⟩ => ⟨S8x512x4096, .f32⟩
  | .hbm, ⟨1, _⟩ => ⟨S4096x4096, .f32⟩
  | .hbm, ⟨2, _⟩ => ⟨S1x4096, .f32⟩
  | .hbm, ⟨3, _⟩ => ⟨S16x4096, .f32⟩
  | .hbm, ⟨4, _⟩ => ⟨S16x4096, .f32⟩
  | .hbm, ⟨5, _⟩ => ⟨S4096x4096, .f32⟩
  | .hbm, ⟨6, _⟩ => ⟨S_, .i32⟩
  | .hbm, ⟨7, _⟩ => ⟨S_, .f32⟩
  | .hbm, ⟨8, _⟩ => ⟨S4096x4096, .f32⟩
  | .hbm, ⟨9, _⟩ => ⟨S4096x16, .f32⟩
  | .hbm, ⟨10, _⟩ => ⟨S4096x16, .f32⟩
  | .hbm, ⟨11, _⟩ => ⟨S_, .i32⟩
  | .hbm, ⟨12, _⟩ => ⟨S_, .f32⟩
  | .hbm, ⟨13, _⟩ => ⟨S4096x16, .f32⟩
  | .hbm, ⟨14, _⟩ => ⟨S4096x4096, .f32⟩
  | .hbm, ⟨15, _⟩ => ⟨S8x512x4096, .f32⟩
  | .local _ .vmem, ⟨0, _⟩ => ⟨S512x16, .f32⟩
  | .local _ .vmem, ⟨1, _⟩ => ⟨S512x16, .f32⟩
  | .local _ .vmem, ⟨2, _⟩ => ⟨S512x1024, .f32⟩
  | .local _ .vmem, ⟨3, _⟩ => ⟨S512x1024, .f32⟩
  | .local _ .vmem, ⟨4, _⟩ => ⟨S1024x512, .f32⟩
  | .local _ .vmem, ⟨5, _⟩ => ⟨S1024x512, .f32⟩
  | .local _ .vmem, ⟨6, _⟩ => ⟨S16x512, .f32⟩
  | .local _ .vmem, ⟨7, _⟩ => ⟨S16x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | _, _ => ⟨S8x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S8x512x4096_S4096x4096 : S8x512x4096.ShapeCasts S4096x4096
  pads_S4096x4096_S4096x4096_000_000 : S4096x4096.Pads (![0, 0] : Fin 2 → Nat) ![0, 0] ![0, 0] S4096x4096
  h_S_ : 0 < S_.numel
  transposes_S16x4096_S4096x16_1_0 : S16x4096.Transposes [1, 0] S4096x16
  pads_S4096x16_S4096x16_000_000 : S4096x16.Pads (![0, 0] : Fin 2 → Nat) ![0, 0] ![0, 0] S4096x16
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S16x512_S16x512_0_0 : ∀ a, (![0, 0] : Fin 2 → Nat) a + S16x512.size a ≤ S16x512.size a
  h_S16x512 : 0 < S16x512.numel
  inb_S1x512_S1x512_0_0 : ∀ a, (![0, 0] : Fin 2 → Nat) a + S1x512.size a ≤ S1x512.size a
  h_S1x512 : 0 < S1x512.numel
  broadcasts_S1x512_S512x512 : S1x512.Broadcasts S512x512
  shapeCasts_S4096x4096_S8x512x4096 : S4096x4096.ShapeCasts S8x512x4096
  dot_S4096x4096_S4096x16_S4096x16_1_0_0_1_n_n_wf : DotDims.WF S4096x4096 S4096x16 S4096x16 [1] [0] [0] [1] [] []
  dot_S512x1024_S1024x512_S512x512_1_0_0_1_n_n_wf : DotDims.WF S512x1024 S1024x512 S512x512 [1] [0] [0] [1] [] []
  dot_S512x16_S16x512_S512x512_1_0_0_1_n_n_wf : DotDims.WF S512x16 S16x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x16.size a ≤ S4096x16.size a
  hwx0_0 : ∀ i : grid0.Coords, EltTy.bits .f32 = 32 ∨ (Rect.block (s := S4096x16) S512x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .f32 = 32 ∨ (Rect.block (s := S4096x4096) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512.size a ≤ S16x4096.size a
  hwx0_3 : ∀ i : grid0.Coords, EltTy.bits .f32 = 32 ∨ (Rect.block (s := S16x4096) S16x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S4096x4096.size a
  hwx0_5 : ∀ i : grid0.Coords, EltTy.bits .f32 = 32 ∨ (Rect.block (s := S4096x4096) S512x512.size (cc0_transform_5 i) (hinb0_5 i)).WholeWords (EltTy.packing .f32)

variable [Facts₀]

def dot_S4096x4096_S4096x16_S4096x16_1_0_0_1_n_n : DotDims S4096x4096 S4096x16 S4096x16 where
  lhsContracting := [1]
  rhsContracting := [0]
  lhsNonContracting := [0]
  rhsNonContracting := [1]
  lhsBatch := []
  rhsBatch := []
  wf := dot_S4096x4096_S4096x16_S4096x16_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x16_S16x512_S512x512_1_0_0_1_n_n : DotDims S512x16 S16x512 S512x512 where
  lhsContracting := [1]
  rhsContracting := [0]
  lhsNonContracting := [0]
  rhsNonContracting := [1]
  lhsBatch := []
  rhsBatch := []
  wf := dot_S512x16_S16x512_S512x512_1_0_0_1_n_n_wf

abbrev win0_0 : Pipeline.Window sig grid0 :=
  Pipeline.Window.ofSpec (Memref.whole main_v4) S512x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S16x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== Proof.KernPiece.lean ====
/-
  What one run of the body leaves behind, as pure terms of the blocks it loads.

  The body loads the row tile x (1024 × 4096), the weight tile w (1 × 4096 × 512), the tile bt (16 × 512) of the second
  factor and the bias tile (1 × 512); it keeps a 1024 × 16 scratch s across the points of one row of the grid.
  * At the first point of a row (column coordinate 0) it also loads the whole first factor a (4096 × 16), stores
    s := x · a into the scratch, and reads that value back for the second product: the output tile is
    (x · w + (x · a) · bt) + bias and the scratch ends at x · a.
  * At every other point the scratch is only read: with s the value the point before left, the output tile is
    (x · w + s · bt) + bias, and the scratch is unchanged.
  Each statement holds for any float instance: the stores cover their buffers with one whole-buffer write, and every
  load reads a whole buffer.
-/
import proofs.«143460_g2000706549906588_pallasbulk_644_8_alg».proof.Proof.Gen.KernelIdeal.Frame
import Idealize.ShloMosaic.Lib.Pipeline.Value
import Idealize.ShloMosaic.Lib.Tactic

set_option maxRecDepth 16384

noncomputable section

namespace Cert.KernelIdeal.KPiece

open Idealize.ShloMosaic Idealize.ShloMosaic.TcCoe Idealize.SL.Sem Idealize.ShloMosaic.Tactic
open Cert.KernelIdeal Cert.KernelIdeal.Gen

variable {F : FTy → Type} [FloatOps F]

/-- The zero offsets of a rank-2 whole-buffer access. -/
theorem hz : (![0, 0] : Fin 2 → Nat) = fun _ => 0 := funext fun a => by fin_cases a <;> rfl
/-- The zero offsets of a rank-3 whole-buffer access. -/
theorem hz3 : (![0, 0, 0] : Fin 3 → Nat) = fun _ => 0 := funext fun a => by fin_cases a <;> rfl

/-- First point of a row: the scratch ends at x · a. -/
theorem scratch_first (c : Dev nD) (i : grid0.Coords) (a2 : Memref sig .tc .vmem S1024x4096 .f32) (h2 : a2.IsWhole) (a3 : Memref sig .tc .vmem S1x4096x512 .bf16) (h3 : a3.IsWhole) (a4 : Memref sig .tc .vmem S4096x16 .bf16) (h4 : a4.IsWhole) (a5 : Memref sig .tc .vmem S16x512 .bf16) (h5 : a5.IsWhole) (a6 : Memref sig .tc .vmem S1x512 .f32) (h6 : a6.IsWhole) (a7 : Memref sig .tc .vmem S1024x512 .f32) (h7 : a7.IsWhole) (a8 : Memref sig .tc .vmem S1024x16 .bf16) (h8 : a8.IsWhole) (hc : cond0_0 i) (x0 : Vec F S1024x4096 .f32) (x1 : Vec F S1x4096x512 .bf16) (x2 : Vec F S4096x16 .bf16) (x3 : Vec F S16x512 .bf16) (x4 : Vec F S1x512 .f32) :
    sout0_A_0 c i a2 h2 a3 h3 a4 h4 a5 h5 a6 h6 a7 h7 a8 h8 hc x0 x1 x2 x3 x4 = k0_pay2 x0 x2 := by
  unfold sout0_A_0
  rw [View.read_writes_eq_canon _ _ _ (scover0_A_0 c i a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h2.read_unread, h4.read_unread, View.ld_unit_zero (S := S1024x4096) hz,
    View.ld_unit_zero (S := S4096x16) hz]

/-- First point of a row: the output tile is (x · w + (x · a) · bt) + bias, the second product reading the scratch the
    same run has just stored. -/
theorem out_first (c : Dev nD) (i : grid0.Coords) (a2 : Memref sig .tc .vmem S1024x4096 .f32) (h2 : a2.IsWhole) (a3 : Memref sig .tc .vmem S1x4096x512 .bf16) (h3 : a3.IsWhole) (a4 : Memref sig .tc .vmem S4096x16 .bf16) (h4 : a4.IsWhole) (a5 : Memref sig .tc .vmem S16x512 .bf16) (h5 : a5.IsWhole) (a6 : Memref sig .tc .vmem S1x512 .f32) (h6 : a6.IsWhole) (a7 : Memref sig .tc .vmem S1024x512 .f32) (h7 : a7.IsWhole) (a8 : Memref sig .tc .vmem S1024x16 .bf16) (h8 : a8.IsWhole) (hc : cond0_0 i) (x0 : Vec F S1024x4096 .f32) (x1 : Vec F S1x4096x512 .bf16) (x2 : Vec F S4096x16 .bf16) (x3 : Vec F S16x512 .bf16) (x4 : Vec F S1x512 .f32) :
    out0_A_5 c i a2 h2 a3 h3 a4 h4 a5 h5 a6 h6 a7 h7 a8 h8 hc x0 x1 x2 x3 x4 = k0_pay3 x0 x1 (k0_pay2 x0 x2) x3 x4 := by
  unfold out0_A_5
  rw [View.read_writes_eq_canon _ _ _ (cover0_A_5 c i a2 h2 a3 h3 a4 h4 a5 h5 a6 h6 a7 h7 a8 h8 hc x0 x1 x2 x3 x4)]
  unfold kernelRun0_A
  dsimp only
  sl_unfold_words
  rw [View.canon_unit_zero hz, View.readCov_unit_zero (S := S1024x16) _ hz]
  simp only [View.readAt_eq_ld, h2.read_unread, h3.read_unread, h4.read_unread, h5.read_unread, h6.read_unread,
    View.ld_unit_zero (S := S1024x4096) hz, View.ld_unit_zero (S := S1x4096x512) hz3, View.ld_unit_zero (S := S4096x16) hz,
    View.ld_unit_zero (S := S16x512) hz, View.ld_unit_zero (S := S1x512) hz]

/-- Any later point of a row: the output tile is (x · w + s · bt) + bias over the scratch s the point before left. -/
theorem out_later (c : Dev nD) (i : grid0.Coords) (a2 : Memref sig .tc .vmem S1024x4096 .f32) (h2 : a2.IsWhole) (a3 : Memref sig .tc .vmem S1x4096x512 .bf16) (h3 : a3.IsWhole) (a4 : Memref sig .tc .vmem S4096x16 .bf16) (h4 : a4.IsWhole) (a5 : Memref sig .tc .vmem S16x512 .bf16) (h5 : a5.IsWhole) (a6 : Memref sig .tc .vmem S1x512 .f32) (h6 : a6.IsWhole) (a7 : Memref sig .tc .vmem S1024x512 .f32) (h7 : a7.IsWhole) (a8 : Memref sig .tc .vmem S1024x16 .bf16) (h8 : a8.IsWhole) (hc : ¬cond0_0 i) (x0 : Vec F S1024x4096 .f32) (x1 : Vec F S1x4096x512 .bf16) (x2 : Vec F S4096x16 .bf16) (x3 : Vec F S16x512 .bf16) (x4 : Vec F S1x512 .f32) (xs0 : Vec F S1024x16 .bf16) :
    out0_B_5 c i a2 h2 a3 h3 a4 h4 a5 h5 a6 h6 a7 h7 a8 h8 hc x0 x1 x2 x3 x4 xs0 = k0_pay3 x0 x1 xs0 x3 x4 := by
  unfold out0_B_5
  rw [View.read_writes_eq_canon _ _ _ (cover0_B_5 c i a2 h2 a3 h3 a4 h4 a5 h5 a6 h6 a7 h7 a8 h8 hc x0 x1 x2 x3 x4 xs0)]
  unfold kernelRun0_B
  dsimp only
  rw [View.canon_unit_zero hz]
  simp only [View.readAt_eq_ld, h2.read_unread, h3.read_unread, h5.read_unread, h6.read_unread, h8.read_unread,
    View.ld_unit_zero (S := S1024x4096) hz, View.ld_unit_zero (S := S1x4096x512) hz3, View.ld_unit_zero (S := S16x512) hz,
    View.ld_unit_zero (S := S1x512) hz, View.ld_unit_zero (S := S1024x16) hz]

end Cert.KernelIdeal.KPiece

end
-- ==== Proof.LibProductIx.lean ====
/-
  A matrix product read at an entry, with the operand indices written by their coordinates.

  Two arrangements of dimension numbers, no batch axis in either:
  * [A, K] × [K, B] → [A, B], contracting the left factor's axis 1 with the right factor's axis 0:
    the sum over the contraction index at (p, q) is Σ_{k<K} l(p, k) · r(k, q);
  * [A, S, K] × [B, K] → [A, S, B], contracting the left factor's last axis with the right factor's axis 1 (the
    right factor used by rows: x · Wᵀ on every row of a stack of rows): the sum at (a, s, b) is
    Σ_{k<K} l(a, s, k) · r(b, k).
  So a product into a zero accumulator or a host dot_general is that sum, and reads one row of each factor.
  General: nothing here depends on a particular program. An instance supplies the kept coordinates (`hl0`, `hr1`, …: each is
  `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.LibProductIx

open Idealize.ShloMosaic Idealize.ShloMosaic.ValueIdx

/-- [A, K] × [K, B]: the sum over the contraction index at (p, q) is Σ_k l(p, k) · r(k, q). -/
theorem sum_rows_cols {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k :=
    funext fun a => Fin.ext (by
      match a with
      | ⟨0, _⟩ => exact hl0 (ix2 p q) _
      | ⟨1, _⟩ => exact (d.lhsIdx_val_of_single hlc (ix2 p q) _).trans hk)
  have er : d.rhsIdx (ix2 p q) ((contrEquiv1 d K hr hs).symm k) = ix2 k q :=
    funext fun a => Fin.ext (by
      match a with
      | ⟨0, _⟩ => exact (d.rhsIdx_val_of_single hrc (ix2 p q) _).trans hk
      | ⟨1, _⟩ => exact hr1 (ix2 p q) _)
  rw [el, er]

/-- [A, S, K] × [B, K]: the sum over the contraction index at (a, s, b) is Σ_k l(a, s, k) · r(b, k). -/
theorem sum_stack_rows {A S B K : Nat} {φ₁ φ₂ : FTy}
    (d : DotDims (⟨3, ![A, S, K]⟩ : Shape) (⟨2, ![B, K]⟩ : Shape) (⟨3, ![A, S, B]⟩ : Shape))
    (hr : d.contr.rank = 1) (hs : d.contr.size ⟨0, by omega⟩ = K)
    (hlc : d.lhsContracting = [(2 : Fin 3)]) (hrc : d.rhsContracting = [(1 : Fin 2)])
    (hl0 : ∀ (j : (⟨3, ![A, S, B]⟩ : Shape).Idx) (q : d.contr.Idx), (d.lhsIdx j q 0).val = (j 0).val)
    (hl1 : ∀ (j : (⟨3, ![A, S, B]⟩ : Shape).Idx) (q : d.contr.Idx), (d.lhsIdx j q 1).val = (j 1).val)
    (hr0 : ∀ (j : (⟨3, ![A, S, B]⟩ : Shape).Idx) (q : d.contr.Idx), (d.rhsIdx j q 0).val = (j 2).val)
    (l : FVec Ideal (⟨3, ![A, S, K]⟩ : Shape) φ₁) (r : FVec Ideal (⟨2, ![B, K]⟩ : Shape) φ₂) (a : Fin A) (s : Fin S) (b : Fin B) :
    ∑ c : d.contr.Idx, l (d.lhsIdx (ix3 a s b) c) * r (d.rhsIdx (ix3 a s b) c) = ∑ k : Fin K, l (ix3 a s k) * r (ix2 b k) := by
  rw [← Equiv.sum_comp (contrEquiv1 d K hr hs).symm]
  refine Finset.sum_congr rfl fun k _ => ?_
  have hk := contrEquiv1_symm_val d K hr hs k
  have el : d.lhsIdx (ix3 a s b) ((contrEquiv1 d K hr hs).symm k) = ix3 a s k :=
    funext fun c => Fin.ext (by
      match c with
      | ⟨0, _⟩ => exact hl0 (ix3 a s b) _
      | ⟨1, _⟩ => exact hl1 (ix3 a s b) _
      | ⟨2, _⟩ => exact (d.lhsIdx_val_of_single hlc (ix3 a s b) _).trans hk)
  have er : d.rhsIdx (ix3 a s b) ((contrEquiv1 d K hr hs).symm k) = ix2 b k :=
    funext fun c => Fin.ext (by
      match c with
      | ⟨0, _⟩ => exact hr0 (ix3 a s b) _
      | ⟨1, _⟩ => exact (d.rhsIdx_val_of_single hrc (ix3 a s b) _).trans hk)
  rw [el, er]

end Cert.LibProductIx

end
-- ==== Proof.KernPay.lean ====
/-
  The body's arithmetic read entry by entry, on the extended reals.

  With x the 1024 × 4096 row tile, a the 4096 × 16 first factor, w the 1 × 4096 × 512 weight tile, s a 1024 × 16 scratch,
  bt the 16 × 512 tile of the second factor and bias a 1 × 512 tile:
  * the scratch value x · a has, at (p, r), the entry Σ_k x(p, k) · a(k, r);
  * the output tile has, at (p, q), the entry ( Σ_k x(p, k) · w(0, k, q) + Σ_r s(p, r) · bt(r, q) ) + bias(0, q).
  A change of float format is the identity here, a product into the zero accumulator is the plain sum over the
  contracted axis, the weight tile's leading unit axis is dropped, and the bias row is repeated over the 1024 rows.
  Nothing is re-associated: the sums and the two additions stand in the order the body performs them.
-/
import proofs.«143460_g2000706549906588_pallasbulk_644_8_alg».proof.Proof.Gen.KernelIdeal.Skeleton
import proofs.«143460_g2000706549906588_pallasbulk_644_8_alg».proof.Proof.LibProductIx
import Idealize.ShloMosaic.Lib.ValueLayout
import Idealize.ShloMosaic.Lib.Pipeline.Value
import Idealize.ShloMosaic.PureOps.Ideal.Laws

noncomputable section

namespace Cert.KernelIdeal.KPay

open Idealize.ShloMosaic Idealize.ShloMosaic.ValueIdx
open Cert.KernelIdeal Cert.KernelIdeal.Gen
open scoped BigOperators

/-- The row tile converted to the narrower format is the row tile. -/
theorem pay1_apply (x0 : Vec Ideal S1024x4096 .f32) (i : S1024x4096.Idx) : k0_pay1 (F := Ideal) x0 i = x0 i := by
  unfold k0_pay1
  exact congrFun (shapeCast_self x0 _) i

/-- [1024, 4096] × [4096, 16]: the contraction at (p, r) runs over the 4096 columns of row p and rows of column r. -/
theorem sum_xa (l : FVec Ideal S1024x4096 .bf16) (r : FVec Ideal S4096x16 .bf16) (p : Fin 1024) (q : Fin 16) :
    ∑ c : dot_S1024x4096_S4096x16_S1024x16_1_0_0_1_n_n.contr.Idx, l (dot_S1024x4096_S4096x16_S1024x16_1_0_0_1_n_n.lhsIdx (ix2 p q) c) * r (dot_S1024x4096_S4096x16_S1024x16_1_0_0_1_n_n.rhsIdx (ix2 p q) c)
      = ∑ k : Fin 4096, l (ix2 p k) * r (ix2 k q) :=
  Cert.LibProductIx.sum_rows_cols dot_S1024x4096_S4096x16_S1024x16_1_0_0_1_n_n rfl rfl rfl rfl (fun _ _ => rfl) (fun _ _ => rfl) l r p q

/-- [1024, 4096] × [4096, 512]: the same for the weight tile. -/
theorem sum_xw (l : FVec Ideal S1024x4096 .bf16) (r : FVec Ideal S4096x512 .bf16) (p : Fin 1024) (q : Fin 512) :
    ∑ c : dot_S1024x4096_S4096x512_S1024x512_1_0_0_1_n_n.contr.Idx, l (dot_S1024x4096_S4096x512_S1024x512_1_0_0_1_n_n.lhsIdx (ix2 p q) c) * r (dot_S1024x4096_S4096x512_S1024x512_1_0_0_1_n_n.rhsIdx (ix2 p q) c)
      = ∑ k : Fin 4096, l (ix2 p k) * r (ix2 k q) :=
  Cert.LibProductIx.sum_rows_cols dot_S1024x4096_S4096x512_S1024x512_1_0_0_1_n_n rfl rfl rfl rfl (fun _ _ => rfl) (fun _ _ => rfl) l r p q

/-- [1024, 16] × [16, 512]: the contraction over the 16 columns of the scratch. -/
theorem sum_sb (l : FVec Ideal S1024x16 .bf16) (r : FVec Ideal S16x512 .bf16) (p : Fin 1024) (q : Fin 512) :
    ∑ c : dot_S1024x16_S16x512_S1024x512_1_0_0_1_n_n.contr.Idx, l (dot_S1024x16_S16x512_S1024x512_1_0_0_1_n_n.lhsIdx (ix2 p q) c) * r (dot_S1024x16_S16x512_S1024x512_1_0_0_1_n_n.rhsIdx (ix2 p q) c)
      = ∑ k : Fin 16, l (ix2 p k) * r (ix2 k q) :=
  Cert.LibProductIx.sum_rows_cols dot_S1024x16_S16x512_S1024x512_1_0_0_1_n_n rfl rfl rfl rfl (fun _ _ => rfl) (fun _ _ => rfl) l r p q

/-- The scratch value x · a at (p, r): Σ_k x(p, k) · a(k, r). -/
theorem pay2_apply (x0 : Vec Ideal S1024x4096 .f32) (x2 : Vec Ideal S4096x16 .bf16) (p : Fin 1024) (r : Fin 16) :
    k0_pay2 (F := Ideal) x0 x2 (ix2 p r) = ∑ k : Fin 4096, x0 (ix2 p k) * x2 (ix2 k r) := by
  unfold k0_pay2
  refine (congrFun (shapeCast_self _ _) (ix2 p r)).trans ?_
  refine (Ideal.matmul_constant_zero_apply dot_S1024x4096_S4096x16_S1024x16_1_0_0_1_n_n none (k0_pay1 x0) (shapeCast S4096x16 x2 shapeCasts_S4096x16_S4096x16) (ix2 p r)).trans ?_
  refine (sum_xa _ _ p r).trans ?_
  refine Finset.sum_congr rfl fun k _ => ?_
  exact congrArg₂ (· * ·) (pay1_apply x0 (ix2 p k)) (congrFun (shapeCast_self x2 _) (ix2 k r))

/-- The first product of the output tile at (p, q): Σ_k x(p, k) · w(0, k, q). -/
theorem prod_xw (x0 : Vec Ideal S1024x4096 .f32) (x1 : Vec Ideal S1x4096x512 .bf16) (p : Fin 1024) (q : Fin 512) :
    matmul (F := Ideal) (φ₁ := .bf16) (φ₂ := .bf16) dot_S1024x4096_S4096x512_S1024x512_1_0_0_1_n_n none (k0_pay1 x0) (shapeCast S4096x512 x1 shapeCasts_S1x4096x512_S4096x512) (constant S1024x512 .f32 0x00000000#32) (ix2 p q)
      = ∑ k : Fin 4096, x0 (ix2 p k) * x1 (ix3 (0 : Fin 1) k q) := by
  refine (Ideal.matmul_constant_zero_apply (φ₁ := .bf16) (φ₂ := .bf16) dot_S1024x4096_S4096x512_S1024x512_1_0_0_1_n_n none (k0_pay1 x0) (shapeCast S4096x512 x1 shapeCasts_S1x4096x512_S4096x512) (ix2 p q)).trans ?_
  refine (sum_xw _ _ p q).trans ?_
  refine Finset.sum_congr rfl fun k _ => ?_
  exact congrArg₂ (· * ·) (pay1_apply x0 (ix2 p k)) (shapeCast_1ab_ab_apply x1 _ k q)

/-- The second product of the output tile at (p, q): Σ_r s(p, r) · bt(r, q). -/
theorem prod_sb (xs : Vec Ideal S1024x16 .bf16) (x3 : Vec Ideal S16x512 .bf16) (p : Fin 1024) (q : Fin 512) :
    matmul (F := Ideal) (φ₁ := .bf16) (φ₂ := .bf16) dot_S1024x16_S16x512_S1024x512_1_0_0_1_n_n none xs (shapeCast S16x512 x3 shapeCasts_S16x512_S16x512) (constant S1024x512 .f32 0x00000000#32) (ix2 p q)
      = ∑ r : Fin 16, xs (ix2 p r) * x3 (ix2 r q) := by
  refine (Ideal.matmul_constant_zero_apply (φ₁ := .bf16) (φ₂ := .bf16) dot_S1024x16_S16x512_S1024x512_1_0_0_1_n_n none xs (shapeCast S16x512 x3 shapeCasts_S16x512_S16x512) (ix2 p q)).trans ?_
  refine (sum_sb _ _ p q).trans ?_
  refine Finset.sum_congr rfl fun k _ => ?_
  exact congrArg (xs (ix2 p k) * ·) (congrFun (shapeCast_self x3 _) (ix2 k q))

/-- The output tile at (p, q): ( Σ_k x(p, k) · w(0, k, q) + Σ_r s(p, r) · bt(r, q) ) + bias(0, q). -/
theorem pay3_apply (x0 : Vec Ideal S1024x4096 .f32) (x1 : Vec Ideal S1x4096x512 .bf16) (xs : Vec Ideal S1024x16 .bf16)
    (x3 : Vec Ideal S16x512 .bf16) (x4 : Vec Ideal S1x512 .f32) (p : Fin 1024) (q : Fin 512) :
    k0_pay3 (F := Ideal) x0 x1 xs x3 x4 (ix2 p q)
      = (∑ k : Fin 4096, x0 (ix2 p k) * x1 (ix3 (0 : Fin 1) k q) + ∑ r : Fin 16, xs (ix2 p r) * x3 (ix2 r q))
        + x4 (ix2 (0 : Fin 1) q) := by
  unfold k0_pay3
  exact congrArg₂ (· + ·) (congrArg₂ (· + ·) (prod_xw x0 x1 p q) (prod_sb xs x3 p q))
    (broadcastTo_1b_ab_apply x4 broadcasts_S1x512_S1024x512 p q)

end Cert.KernelIdeal.KPay

end
-- ==== Proof.KernBlocks.lean ====
/-
  The tiles the body loads at a grid point, read entry by entry in the arrays the region finds.

  The grid has 4 × 8 points; point t works on row tile t / 8 (1024 rows) and column tile t % 8 (512 columns). A tile's
  entry sits in its array at (tile index) × (tile extent) + (position inside the tile) on every axis:
  * the row tile of the flattened x: row p is row (t / 8) · 1024 + p, all 4096 columns;
  * the weight tile: group t % 8 of the re-laid W, all 4096 × 512 entries of it;
  * the first factor: the whole 4096 × 16 array at every point;
  * the tile of the second factor: all 16 rows, column q is column (t % 8) · 512 + q;
  * the bias tile: column q is column (t % 8) · 512 + q of the one row.
  In each statement the entry of the array is an index R (or N, J) of the array's own range, given with the equation
  R = (tile index) · (tile extent) + (position inside the tile) that places it.
-/
import proofs.«143460_g2000706549906588_pallasbulk_644_8_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KernelIdeal.KBlocks

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The tiles' index maps over the grid: point t sits in row tile t / 8 and column tile t % 8. -/
theorem idx_facts : ∀ t : Fin cfg0.N,
    win0_0.index t (0 : Fin 2) = t.val / 8 ∧ win0_0.index t (1 : Fin 2) = 0
    ∧ win0_1.index t (0 : Fin 3) = t.val % 8 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = t.val % 8
    ∧ win0_4.index t (0 : Fin 2) = 0 ∧ win0_4.index t (1 : Fin 2) = t.val % 8
    ∧ win0_5.index t (0 : Fin 2) = t.val / 8 ∧ win0_5.index t (1 : Fin 2) = t.val % 8 :=
  (by decide +kernel : ∀ t : Fin grid0.N, _)

/-- The row tile of x at point t: its row p is row (t / 8) · 1024 + p of the flattened x. -/
theorem blk0_apply (c : Dev nD) (t : Fin cfg0.N) (p : Fin 1024) (k : Fin 4096) (R : Fin 4096)
    (hR : R.val = t.val / 8 * 1024 + p.val) :
    (iblk m c 0 t : Vec Ideal S1024x4096 .f32) (ix2 p k) = (V m c main_v0 : S4096x4096.Idx → EReal) (ix2 R k) := by
  obtain ⟨e0, e1, -⟩ := idx_facts t
  unfold iblk
  rw [View.read_apply]
  show V m c main_v0 _ = V m c main_v0 _
  congr 1
  funext a
  apply Fin.ext
  match a with
  | ⟨0, _⟩ => show win0_0.index t 0 * 1024 + 1 * p.val = R.val; rw [e0, hR]; omega
  | ⟨1, _⟩ => show win0_0.index t 1 * 4096 + 1 * k.val = k.val; rw [e1]; omega

/-- The weight tile at point t: group t % 8 of the re-laid W. -/
theorem blk1_apply (c : Dev nD) (t : Fin cfg0.N) (k : Fin 4096) (q : Fin 512) (J : Fin 8) (hJ : J.val = t.val % 8) :
    (iblk m c 1 t : Vec Ideal S1x4096x512 .bf16) (ix3 (0 : Fin 1) k q) = (V m c main_v3 : S8x4096x512.Idx → EReal) (ix3 J k q) := by
  obtain ⟨-, -, e0, e1, e2, -⟩ := idx_facts t
  unfold iblk
  rw [View.read_apply]
  show V m c main_v3 _ = V m c main_v3 _
  congr 1
  funext a
  apply Fin.ext
  match a with
  | ⟨0, _⟩ => show win0_1.index t 0 * 1 + 1 * 0 = J.val; rw [e0, hJ]; omega
  | ⟨1, _⟩ => show win0_1.index t 1 * 4096 + 1 * k.val = k.val; rw [e1]; omega
  | ⟨2, _⟩ => show win0_1.index t 2 * 512 + 1 * q.val = q.val; rw [e2]; omega

/-- The first factor at point t: the whole array. -/
theorem blk2_apply (c : Dev nD) (t : Fin cfg0.N) (k : Fin 4096) (r : Fin 16) :
    (iblk m c 2 t : Vec Ideal S4096x16 .bf16) (ix2 k r) = (V m c main_v5 : S4096x16.Idx → EReal) (ix2 k r) := by
  obtain ⟨-, -, -, -, -, e0, e1, -⟩ := idx_facts t
  unfold iblk
  rw [View.read_apply]
  show V m c main_v5 _ = V m c main_v5 _
  congr 1
  funext a
  apply Fin.ext
  match a with
  | ⟨0, _⟩ => show win0_2.index t 0 * 4096 + 1 * k.val = k.val; rw [e0]; omega
  | ⟨1, _⟩ => show win0_2.index t 1 * 16 + 1 * r.val = r.val; rw [e1]; omega

/-- The tile of the second factor at point t: column q is column (t % 8) · 512 + q. -/
theorem blk3_apply (c : Dev nD) (t : Fin cfg0.N) (r : Fin 16) (q : Fin 512) (N : Fin 4096) (hN : N.val = t.val % 8 * 512 + q.val) :
    (iblk m c 3 t : Vec Ideal S16x512 .bf16) (ix2 r q) = (V m c main_v6 : S16x4096.Idx → EReal) (ix2 r N) := by
  obtain ⟨-, -, -, -, -, -, -, e0, e1, -⟩ := idx_facts t
  unfold iblk
  rw [View.read_apply]
  show V m c main_v6 _ = V m c main_v6 _
  congr 1
  funext a
  apply Fin.ext
  match a with
  | ⟨0, _⟩ => show win0_3.index t 0 * 16 + 1 * r.val = r.val; rw [e0]; omega
  | ⟨1, _⟩ => show win0_3.index t 1 * 512 + 1 * q.val = N.val; rw [e1, hN]; omega

/-- The bias tile at point t: column q is column (t % 8) · 512 + q of the one row. -/
theorem blk4_apply (c : Dev nD) (t : Fin cfg0.N) (q : Fin 512) (N : Fin 4096) (hN : N.val = t.val % 8 * 512 + q.val) :
    (iblk m c 4 t : Vec Ideal S1x512 .f32) (ix2 (0 : Fin 1) q) = (V m c main_arg2 : S1x4096.Idx → EReal) (ix2 (0 : Fin 1) N) := by
  obtain ⟨-, -, -, -, -, -, -, -, -, e0, e1, -⟩ := idx_facts t
  unfold iblk
  rw [View.read_apply]
  show V m c main_arg2 _ = V m c main_arg2 _
  congr 1
  funext a
  apply Fin.ext
  match a with
  | ⟨0, _⟩ => show win0_4.index t 0 * 1 + 1 * 0 = 0; rw [e0]
  | ⟨1, _⟩ => show win0_4.index t 1 * 512 + 1 * q.val = N.val; rw [e1, hN]; omega

end Cert.KernelIdeal.KBlocks

end
-- ==== Proof.KernInv.lean ====
/-
  What the output tile and the carried scratch hold after each grid point, entry by entry in the arrays the region finds.

  Write X for the flattened x (4096 × 4096), W' for the re-laid W (8 × 4096 × 512), A' for the transposed A (4096 × 16),
  Bt for the second factor (16 × 4096) and bias for the one bias row. For a row R and a rank index r put
      proj(R, r) = Σ_k X(R, k) · A'(k, r),
  and for a column N = J · 512 + q in column tile J
      entry(R, J, q, N) = ( Σ_k X(R, k) · W'(J, k, q) + Σ_r proj(R, r) · Bt(r, N) ) + bias(0, N).
  After point n (row tile n / 8, column tile n % 8):
  * the scratch holds proj on the rows of tile n / 8: it is stored at the first point of the row of the grid and only
    read at the seven points after it, which lie in the same row tile;
  * the output tile holds entry on the rows of tile n / 8 and the columns of tile n % 8.
  By induction on the point: a first point of a row stores the scratch and uses it at once; a later point uses what
  the point before left, which by the induction hypothesis is proj on the same rows.
-/
import proofs.«143460_g2000706549906588_pallasbulk_644_8_alg».proof.Proof.KernPiece
import proofs.«143460_g2000706549906588_pallasbulk_644_8_alg».proof.Proof.KernPay
import proofs.«143460_g2000706549906588_pallasbulk_644_8_alg».proof.Proof.KernBlocks

set_option maxRecDepth 16384

noncomputable section

namespace Cert.KernelIdeal.KInv

open Idealize.ShloMosaic Idealize.ShloMosaic.TcCoe Idealize.SL.Sem Idealize.ShloMosaic.ValueIdx
open Cert.KernelIdeal Cert.KernelIdeal.Gen
open scoped BigOperators

variable (m : (ℓ : Loc nD τ sig) → Buf (Elt Ideal) ℓ)

/-- X: the flattened x as the region finds it. -/
abbrev arrX (c : Dev nD) : S4096x4096.Idx → EReal := V m c main_v0
/-- W': the re-laid W as the region finds it. -/
abbrev arrW (c : Dev nD) : S8x4096x512.Idx → EReal := V m c main_v3
/-- A': the transposed A as the region finds it. -/
abbrev arrA (c : Dev nD) : S4096x16.Idx → EReal := V m c main_v5
/-- Bt as the region finds it. -/
abbrev arrB (c : Dev nD) : S16x4096.Idx → EReal := V m c main_v6
/-- The bias row as the region finds it. -/
abbrev arrBias (c : Dev nD) : S1x4096.Idx → EReal := V m c main_arg2

/-- proj(R, r) = Σ_k X(R, k) · A'(k, r). -/
def projAt (c : Dev nD) (R : Fin 4096) (r : Fin 16) : EReal :=
  ∑ k : Fin 4096, arrX m c (ix2 R k) * arrA m c (ix2 k r)

/-- entry(R, J, q, N) = ( Σ_k X(R, k) · W'(J, k, q) + Σ_r proj(R, r) · Bt(r, N) ) + bias(0, N). -/
def entryAt (c : Dev nD) (R : Fin 4096) (J : Fin 8) (q : Fin 512) (N : Fin 4096) : EReal :=
  (∑ k : Fin 4096, arrX m c (ix2 R k) * arrW m c (ix3 J k q) + ∑ r : Fin 16, projAt m c R r * arrB m c (ix2 r N))
  + arrBias m c (ix2 (0 : Fin 1) N)

/-- The value stored into the scratch at point t, at (p, r): proj on row (t / 8) · 1024 + p. -/
theorem scratch_at (c : Dev nD) (t : Fin cfg0.N) (p : Fin 1024) (r : Fin 16) (R : Fin 4096)
    (hR : R.val = t.val / 8 * 1024 + p.val) :
    k0_pay2 (F := Ideal) (iblk m c 0 t) (iblk m c 2 t) (ix2 p r) = projAt m c R r := by
  refine (KPay.pay2_apply (iblk m c 0 t) (iblk m c 2 t) p r).trans ?_
  unfold projAt
  exact Finset.sum_congr rfl fun k _ =>
    congrArg₂ (· * ·) (KBlocks.blk0_apply m c t p k R hR) (KBlocks.blk2_apply m c t k r)

/-- The output tile at point t over a scratch that holds proj on the point's rows, at (p, q): entry on row
    (t / 8) · 1024 + p and column (t % 8) · 512 + q. -/
theorem out_at (c : Dev nD) (t : Fin cfg0.N) (xs : Vec Ideal S1024x16 .bf16) (p : Fin 1024) (q : Fin 512)
    (R N : Fin 4096) (J : Fin 8) (hR : R.val = t.val / 8 * 1024 + p.val) (hJ : J.val = t.val % 8)
    (hN : N.val = t.val % 8 * 512 + q.val) (hxs : ∀ r : Fin 16, xs (ix2 p r) = projAt m c R r) :
    k0_pay3 (F := Ideal) (iblk m c 0 t) (iblk m c 1 t) xs (iblk m c 3 t) (iblk m c 4 t) (ix2 p q) = entryAt m c R J q N := by
  refine (KPay.pay3_apply (iblk m c 0 t) (iblk m c 1 t) xs (iblk m c 3 t) (iblk m c 4 t) p q).trans ?_
  unfold entryAt
  refine congrArg₂ (· + ·) (congrArg₂ (· + ·) ?_ ?_) (KBlocks.blk4_apply m c t q N hN)
  · exact Finset.sum_congr rfl fun k _ =>
      congrArg₂ (· * ·) (KBlocks.blk0_apply m c t p k R hR) (KBlocks.blk1_apply m c t k q J hJ)
  · exact Finset.sum_congr rfl fun r _ =>
      congrArg₂ (· * ·) (hxs r) (KBlocks.blk3_apply m c t r q N hN)

/-- After point n the scratch holds proj on the rows of tile n / 8. -/
def ScratchOK (c : Dev nD) (n : ℕ) (hn : n < cfg0.N) : Prop :=
  ∀ (p : Fin 1024) (r : Fin 16) (R : Fin 4096), R.val = n / 8 * 1024 + p.val →
    (outsAt0 m c n hn).2 (ix2 p r) = projAt m c R r

/-- After point n the output tile holds entry on the rows of tile n / 8 and the columns of tile n % 8. -/
def OutOK (c : Dev nD) (n : ℕ) (hn : n < cfg0.N) : Prop :=
  ∀ (p : Fin 1024) (q : Fin 512) (R N : Fin 4096) (J : Fin 8), R.val = n / 8 * 1024 + p.val → J.val = n % 8 →
    N.val = n % 8 * 512 + q.val → (outsAt0 m c n hn).1 (ix2 p q) = entryAt m c R J q N

/-- A first point of a row of the grid: the scratch is stored and used at once. -/
theorem first_ok (c : Dev nD) (t : Fin cfg0.N) (h0 : t.val % 8 = 0) :
    ScratchOK m c t.val t.isLt ∧ OutOK m c t.val t.isLt := by
  constructor
  · unfold ScratchOK
    intro p r R hR
    rw [outsAt0_A m c t h0]
    dsimp only
    exact (congrFun (KPiece.scratch_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)) (ix2 p r)).trans
      (scratch_at m c t p r R hR)
  · unfold OutOK
    intro p q R N J hR hJ hN
    rw [outsAt0_A m c t h0]
    dsimp only
    refine (congrFun (KPiece.out_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)) (ix2 p q)).trans ?_
    exact out_at m c t (k0_pay2 (F := Ideal) (iblk m c 0 t) (iblk m c 2 t)) p q R N J hR hJ hN
      (fun r => scratch_at m c t p r R hR)

/-- A later point of a row of the grid: the scratch is what the point before left, on the same rows. -/
theorem later_ok (c : Dev nD) (t : Fin cfg0.N) (h0 : ¬t.val % 8 = 0)
    (ih : ScratchOK m c (t.val - 1) (Nat.lt_of_le_of_lt (Nat.sub_le _ _) t.isLt)) :
    ScratchOK m c t.val t.isLt ∧ OutOK m c t.val t.isLt := by
  have hdiv : (t.val - 1) / 8 = t.val / 8 := by omega
  unfold ScratchOK at ih
  constructor
  · unfold ScratchOK
    intro p r R hR
    rw [outsAt0_B m c t h0]
    dsimp only
    unfold sout0_B_0
    exact ih p r R (by rw [hdiv]; exact hR)
  · unfold OutOK
    intro p q R N J hR hJ hN
    rw [outsAt0_B m c t h0]
    dsimp only
    refine (congrFun (KPiece.out_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t)
      (outsAt0 m c (t.val - 1) (Nat.lt_of_le_of_lt (Nat.sub_le _ _) t.isLt)).2) (ix2 p q)).trans ?_
    exact out_at m c t (outsAt0 m c (t.val - 1) (Nat.lt_of_le_of_lt (Nat.sub_le _ _) t.isLt)).2 p q R N J hR hJ hN
      (fun r => ih p r R (by rw [hdiv]; exact hR))

/-- The invariant at every point, by induction on the point. -/
theorem inv (c : Dev nD) : ∀ (n : ℕ) (hn : n < cfg0.N), ScratchOK m c n hn ∧ OutOK m c n hn
  | 0, hn => first_ok m c ⟨0, hn⟩ rfl
  | n + 1, hn => by
    by_cases h0 : (n + 1) % 8 = 0
    · exact first_ok m c ⟨n + 1, hn⟩ h0
    · exact later_ok m c ⟨n + 1, hn⟩ h0 (inv c n (Nat.lt_of_succ_lt hn)).1

end Cert.KernelIdeal.KInv

end
-- ==== Proof.KernFinal.lean ====
/-
  The 4096 × 4096 array the region leaves.

  With proj and entry as in the invariant, the array holds at row R and column N
      result(R, N) = entry(R, N / 512, N % 512, N):
  column N lies in column tile N / 512 at position N % 512. Point t writes back its output tile, which by the invariant
  is the restriction of result to rows (t / 8) · 1024 … + 1023 and columns (t % 8) · 512 … + 511; every point writes
  back, and entry (R, N) lies in the tile of point (R / 1024) · 8 + N / 512, so the 32 tiles cover the array.
-/
import proofs.«143460_g2000706549906588_pallasbulk_644_8_alg».proof.Proof.KernInv

set_option maxRecDepth 16384

noncomputable section

namespace Cert.KernelIdeal.KFinal

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The column tile of column N. -/
def colTile (N : Fin 4096) : Fin 8 := ⟨N.val / 512, by have := N.isLt; omega⟩
/-- The position of column N inside its tile. -/
def colPos (N : Fin 4096) : Fin 512 := ⟨N.val % 512, by omega⟩

/-- result(R, N) = entry(R, N / 512, N % 512, N). -/
def Gmat (c : Dev nD) : S4096x4096.Idx → EReal :=
  fun i => KInv.entryAt m c (i 0) (colTile (i 1)) (colPos (i 1)) (i 1)

/-- What point t writes back is its tile of result. -/
theorem flushed_eq (c : Dev nD) (t : Fin cfg0.N) :
    (dats m 0 c).flushed 5 t = ((cfg0.win 5).blk t).view.read (Elt Ideal) (Gmat m c) := by
  show (cfg0.win 5).cut (grid0.coords t) ((dats m 0 c).after 5 t) = _
  rw [after0_5]
  funext y
  have h0 : (y 0).val < 1024 := (y 0).isLt
  have h1 : (y 1).val < 512 := (y 1).isLt
  have hN : t.val < 32 := lt_of_lt_of_eq t.isLt (show cfg0.N = 32 from N_0)
  obtain ⟨-, -, -, -, -, -, -, -, -, -, -, e0, e1⟩ := KBlocks.idx_facts t
  obtain ⟨R, hR⟩ : ∃ R : Fin 4096, R.val = t.val / 8 * 1024 + (y 0).val := ⟨⟨_, by omega⟩, rfl⟩
  obtain ⟨N, hNv⟩ : ∃ N : Fin 4096, N.val = t.val % 8 * 512 + (y 1).val := ⟨⟨_, by omega⟩, rfl⟩
  obtain ⟨J, hJ⟩ : ∃ J : Fin 8, J.val = t.val % 8 := ⟨⟨_, by omega⟩, rfl⟩
  have hemb : ((cfg0.win 5).blk t).view.emb y = ix2 R N := by
    funext a
    apply Fin.ext
    match a with
    | ⟨0, _⟩ => show win0_5.index t 0 * 1024 + 1 * (y 0).val = R.val; rw [e0, hR]; omega
    | ⟨1, _⟩ => show win0_5.index t 1 * 512 + 1 * (y 1).val = N.val; rw [e1, hNv]; omega
  have hx : (cfg0.win 5).xinj (grid0.coords t) y = ix2 (⟨(y 0).val, h0⟩ : Fin 1024) (⟨(y 1).val, h1⟩ : Fin 512) := by
    funext a
    apply Fin.ext
    match a with
    | ⟨0, _⟩ => rfl
    | ⟨1, _⟩ => rfl
  show (outsAt0 m c t.val t.isLt).1 ((cfg0.win 5).xinj (grid0.coords t) y) = Gmat m c (((cfg0.win 5).blk t).view.emb y)
  rw [hemb, hx]
  refine ((KInv.inv m c t.val t.isLt).2 ⟨(y 0).val, h0⟩ ⟨(y 1).val, h1⟩ R N J hR hJ hNv).trans ?_
  have eJ : J = colTile N := Fin.ext (by show J.val = N.val / 512; rw [hJ, hNv]; omega)
  have eq : (⟨(y 1).val, h1⟩ : Fin 512) = colPos N := Fin.ext (by show (y 1).val = N.val % 512; rw [hNv]; omega)
  show KInv.entryAt m c R J ⟨(y 1).val, h1⟩ N = KInv.entryAt m c R (colTile N) (colPos N) N
  rw [eJ, eq]

/-- An index of the array is in point t's tile iff each coordinate is in the tile's range on its axis. -/
theorem mem_blk (t : Fin cfg0.N) (i : S4096x4096.Idx) :
    i ∈ ((cfg0.win 5).blk t).view.set ↔ ∀ a : Fin 2, win0_5.index t a * S1024x512.size a ≤ (i a).val
      ∧ (i a).val < win0_5.index t a * S1024x512.size a + S1024x512.size a := by
  show i ∈ ((View.whole main_v7).slice (win0_5.rect t)).set ↔ _
  rw [View.set_slice_whole, Rect.mem_set_unit]
  exact Iff.rfl

/-- Entry (R, N) lies in the tile of point (R / 1024) · 8 + N / 512, which writes back. -/
theorem cover (i : S4096x4096.Idx) :
    ∃ t : Fin cfg0.N, (cfg0.win 5).flush t = true ∧ i ∈ ((cfg0.win 5).blk t).view.set := by
  have h0 : (i 0).val < 4096 := idx2_lt0 i
  have h1 : (i 1).val < 4096 := idx2_lt1 i
  have hN : cfg0.N = 32 := N_0
  obtain ⟨t, ht⟩ : ∃ t : Fin cfg0.N, t.val = (i 0).val / 1024 * 8 + (i 1).val / 512 := ⟨⟨_, by rw [hN]; omega⟩, rfl⟩
  obtain ⟨-, -, -, -, -, -, -, -, -, -, -, e0, e1⟩ := KBlocks.idx_facts t
  refine ⟨t, flush0_5 t, ?_⟩
  rw [mem_blk]
  intro a
  match a with
  | ⟨0, _⟩ =>
    show win0_5.index t 0 * 1024 ≤ (i 0).val ∧ (i 0).val < win0_5.index t 0 * 1024 + 1024
    rw [e0, ht]; omega
  | ⟨1, _⟩ =>
    show win0_5.index t 1 * 512 ≤ (i 1).val ∧ (i 1).val < win0_5.index t 1 * 512 + 512
    rw [e1, ht]; omega

/-- The array after the region is result. -/
theorem final (c : Dev nD) : (dats m 0 c).arrAt 5 cfg0.N = Gmat m c :=
  (dats m 0 c).arrAt_eq_of_cover 5 (Gmat m c) (fun t _ => flushed_eq m c t) cover

end Cert.KernelIdeal.KFinal

end
-- ==== Proof.LibAxes.lean ====
/-
  Layout operations read at an index given by coordinates, for the shapes a broadcast-add of two matrices over a new
  middle axis and a product over the merged leading axes go through:

  • a MIDDLE unit axis added by a shape cast, `[a, c] → [a, 1, c]` (`shapeCast_ac_a1c_apply`);
  • a broadcast along a middle unit axis, `[a, 1, c] → [a, b, c]` (`broadcastTo_a1c_abc_apply`), and along a
    leading unit axis, `[1, b, c] → [a, b, c]` (`broadcastTo_1bc_abc_apply`);
  • the two leading axes MERGED by a shape cast, `[a, b, c] → [n, c]` with `n = a · b`, and split again,
    `[n, c] → [a, b, c]`: row `r = i · b + j` of the matrix is entry `(i, j)` of the stack
    (`shapeCast_abc_nc_apply`, `shapeCast_nc_abc_apply`); the merged row is passed as its own `Fin n` with the
    equation `r = i · b + j`, so that a literal extent such as `2048` need not be recognised as a product;
  • a vector laid out as `[1, 1, c]` and broadcast to `[a, b, c]` (`shapeCast_c_11c_apply`,
    `broadcastTo_11c_abc_apply`): the bias row added to every entry of a stack of matrices.

  Each is the library's `shapeCast_apply` / `broadcastTo_apply` with the row-major or per-axis arithmetic done,
  for indices written `ix1 … ix3`. Library imports only.
-/
import Idealize.ShloMosaic.Lib.Pipeline.Value
import Idealize.ShloMosaic.Lib.ValueIdx

namespace Cert.LibAxes

open Idealize.ShloMosaic Idealize.ShloMosaic.ValueIdx

variable {α : Type}

/-- An `[a, c]` matrix cast to `[a, 1, c]` reads, at `(i, z, k)`, the matrix at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (z : Fin 1) (k : Fin c) :
    shapeCast ⟨3, ![a, 1, c]⟩ x h (ix3 i z k) = x (ix2 i k) :=
  shapeCast_apply x h _ _ (by
    have hz : z.val = 0 := by omega
    rw [Shape.rowMajor_val_three, Shape.rowMajor_val_two]
    show i.val * c + k.val = (i.val * 1 + z.val) * c + k.val
    rw [hz, Nat.mul_one, Nat.add_zero])

/-- An `[a, 1, c]` array broadcast to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, c]` stack cast to an `[n, c]` matrix reads, at row `r = i · b + j` and column `k`, the stack at
    `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` matrix cast to an `[a, b, c]` stack reads, at `(i, j, k)`, the matrix at row `r = i · b + j`,
    column `k`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- A `[c]` vector cast to `[1, 1, c]` reads, at `(z, z', k)`, the vector at `k`. -/
theorem shapeCast_c_11c_apply {c : ℕ} (x : (⟨1, ![c]⟩ : Shape).Idx → α)
    (h : (⟨1, ![c]⟩ : Shape).ShapeCasts ⟨3, ![1, 1, c]⟩) (z z' : Fin 1) (k : Fin c) :
    shapeCast ⟨3, ![1, 1, c]⟩ x h (ix3 z z' k) = x (ix1 k) :=
  shapeCast_apply x h _ _ (by
    have hz : z.val = 0 := by omega
    have hz' : z'.val = 0 := by omega
    rw [Shape.rowMajor_val_three, Shape.rowMajor_val_one]
    show k.val = (z.val * 1 + z'.val) * c + k.val
    rw [hz, hz']
    simp)

/-- A `[1, 1, c]` array broadcast to `[a, b, c]` reads, at `(i, j, k)`, the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LibAxes
-- ==== Proof.KernHost.lean ====
/-
  The arrays the region finds, read entry by entry in terms of the program's arguments.

  Before the region the host lays the arguments out for the tiles:
  * x, a stack of 8 × 512 rows of length 4096, is flattened to a 4096 × 4096 matrix: row b · 512 + s is row (b, s) of x;
  * W (4096 × 4096, by input and output coordinate) has its output axis split into 8 groups of 512 and the group axis
    moved to the front: entry (j, k, l) of the 8 × 4096 × 512 array is W(k, j · 512 + l);
  * A (16 × 4096) is transposed: entry (k, r) of the 4096 × 16 array is A(r, k);
  * Bt (16 × 4096) is kept as it is.
  The three conversions to the narrower float format are the identity on the extended reals.
-/
import proofs.«143460_g2000706549906588_pallasbulk_644_8_alg».proof.Proof.Gen.KernelIdeal.Frame
import proofs.«143460_g2000706549906588_pallasbulk_644_8_alg».proof.Proof.LibAxes
import Idealize.ShloMosaic.Lib.StableHlo.Run
import Idealize.ShloMosaic.Lib.Pipeline.Value
import Idealize.ShloMosaic.Lib.ValueLayout
import Idealize.ShloMosaic.Lib.Tactic

set_option maxRecDepth 16384

noncomputable section

namespace Cert.KernelIdeal.KHost

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ)

/-- The flattened x as the region finds it. -/
theorem v0_eq (c : Dev nD) : (V m c main_v0 : S4096x4096.Idx → EReal)
    = shapeCast S4096x4096 (m ((c.tc : Thread nD τ).loc main_arg0)) shapeCasts_S8x512x4096_S4096x4096 := by
  dsimp only [Gen.V, Gen.V0]
  simp only [Gen.hostOps0, List.flatten_cons, List.flatten_nil, List.append_nil, List.cons_append, List.nil_append]
  after_results
  rfl

/-- The re-laid W as the region finds it. -/
theorem v3_eq (c : Dev nD) : (V m c main_v3 : S8x4096x512.Idx → EReal)
    = truncf (F := Ideal) .bf16 (transpose S8x4096x512 [1, 0, 2] (shapeCast S4096x8x512 (m ((c.tc : Thread nD τ).loc main_arg1)) shapeCasts_S4096x4096_S4096x8x512) transposes_S4096x8x512_S8x4096x512_1_0_2) bitsLt_bf16_f32 := by
  dsimp only [Gen.V, Gen.V0]
  simp only [Gen.hostOps0, List.flatten_cons, List.flatten_nil, List.append_nil, List.cons_append, List.nil_append]
  after_results
  rfl

/-- The transposed A as the region finds it. -/
theorem v5_eq (c : Dev nD) : (V m c main_v5 : S4096x16.Idx → EReal)
    = truncf (F := Ideal) .bf16 (transpose S4096x16 [1, 0] (m ((c.tc : Thread nD τ).loc main_arg3)) transposes_S16x4096_S4096x16_1_0) bitsLt_bf16_f32 := by
  dsimp only [Gen.V, Gen.V0]
  simp only [Gen.hostOps0, List.flatten_cons, List.flatten_nil, List.append_nil, List.cons_append, List.nil_append]
  after_results

/-- Bt as the region finds it. -/
theorem v6_eq (c : Dev nD) : (V m c main_v6 : S16x4096.Idx → EReal)
    = truncf (F := Ideal) .bf16 (m ((c.tc : Thread nD τ).loc main_arg4)) bitsLt_bf16_f32 := by
  dsimp only [Gen.V, Gen.V0]
  simp only [Gen.hostOps0, List.flatten_cons, List.flatten_nil, List.append_nil, List.cons_append, List.nil_append]
  after_results

/-- Row R = b · 512 + s of the flattened x is row (b, s) of x. -/
theorem v0_apply (c : Dev nD) (b : Fin 8) (s : Fin 512) (k : Fin 4096) (R : Fin 4096) (hR : R.val = b.val * 512 + s.val) :
    (V m c main_v0 : S4096x4096.Idx → EReal) (ix2 R k)
      = (m ((c.tc : Thread nD τ).loc main_arg0) : S8x512x4096.Idx → EReal) (ix3 b s k) :=
  (congrFun (v0_eq m c) (ix2 R k)).trans
    (Cert.LibAxes.shapeCast_abc_nc_apply (m ((c.tc : Thread nD τ).loc main_arg0)) shapeCasts_S8x512x4096_S4096x4096 b s k R hR)

/-- Entry (j, k, l) of the re-laid W is W(k, N) with N = j · 512 + l. -/
theorem v3_apply (c : Dev nD) (j : Fin 8) (k : Fin 4096) (l : Fin 512) (N : Fin 4096) (hN : N.val = j.val * 512 + l.val) :
    (V m c main_v3 : S8x4096x512.Idx → EReal) (ix3 j k l)
      = (m ((c.tc : Thread nD τ).loc main_arg1) : S4096x4096.Idx → EReal) (ix2 k N) := by
  refine (congrFun (v3_eq m c) (ix3 j k l)).trans ?_
  refine (transpose_apply [1, 0, 2] (shapeCast S4096x8x512 (m ((c.tc : Thread nD τ).loc main_arg1)) shapeCasts_S4096x4096_S4096x8x512)
    transposes_S4096x8x512_S8x4096x512_1_0_2 (ix3 j k l) (ix3 k j l)
    (fun a => match a with | ⟨0, _⟩ => rfl | ⟨1, _⟩ => rfl | ⟨2, _⟩ => rfl)).trans ?_
  exact shapeCast_apply (s := S4096x4096) (m ((c.tc : Thread nD τ).loc main_arg1)) shapeCasts_S4096x4096_S4096x8x512 (ix3 k j l) (ix2 k N) (by
    show (S4096x4096.rowMajor (ix2 k N)).val = (S4096x8x512.rowMajor (ix3 k j l)).val
    rw [Shape.rowMajor_val_two, Shape.rowMajor_val_three]
    show k.val * 4096 + N.val = (k.val * 8 + j.val) * 512 + l.val
    omega)

/-- Entry (k, r) of the transposed A is A(r, k). -/
theorem v5_apply (c : Dev nD) (k : Fin 4096) (r : Fin 16) :
    (V m c main_v5 : S4096x16.Idx → EReal) (ix2 k r)
      = (m ((c.tc : Thread nD τ).loc main_arg3) : S16x4096.Idx → EReal) (ix2 r k) :=
  (congrFun (v5_eq m c) (ix2 k r)).trans
    (transpose_ix2_apply (m ((c.tc : Thread nD τ).loc main_arg3)) transposes_S16x4096_S4096x16_1_0 k r)

/-- Bt is read where it stands. -/
theorem v6_apply (c : Dev nD) (i : S16x4096.Idx) :
    (V m c main_v6 : S16x4096.Idx → EReal) i = (m ((c.tc : Thread nD τ).loc main_arg4) : S16x4096.Idx → EReal) i :=
  congrFun (v6_eq m c) i

end Cert.KernelIdeal.KHost

end
-- ==== Proof.Spec.lean ====
/-
  The function both programs compute, on the extended reals.

  x is a stack of 8 × 512 rows of length 4096; W is a 4096 × 4096 matrix stored by (input, output) coordinates; A and Bt are
  16 × 4096 matrices (the rank-16 factors, A by (rank, input) and Bt by (rank, output)); bias is one row of length 4096.
  The entry of the result at row (b, s) and column n is

      ( Σ_k x(b,s,k) · W(k,n)  +  Σ_r ( Σ_k x(b,s,k) · A(r,k) ) · Bt(r,n) )  +  bias(0,n).

  Only commutativity and associativity of + on the extended reals relate the two programs to this form (a sum over 4096
  terms taken whole or in four consecutive blocks of 1024 from zero), so no finiteness of the inputs is used.
-/
import Idealize.ShloMosaic.Lib.ValueIdx

noncomputable section

open scoped BigOperators

namespace Cert.Spec

open Idealize.ShloMosaic Idealize.ShloMosaic.ValueIdx

abbrev SX : Shape := ⟨3, ![8, 512, 4096]⟩
abbrev SW : Shape := ⟨2, ![4096, 4096]⟩
abbrev SB : Shape := ⟨2, ![1, 4096]⟩
abbrev SA : Shape := ⟨2, ![16, 4096]⟩

/-- The rank-16 projection of row (b, s): Σ_k x(b,s,k) · A(r,k). -/
def proj (x : SX.Idx → EReal) (A : SA.Idx → EReal) (b : Fin 8) (s : Fin 512) (r : Fin 16) : EReal :=
  ∑ k : Fin 4096, x (ix3 b s k) * A (ix2 r k)

/-- The result's entry at row (b, s), column n. -/
def entry (x : SX.Idx → EReal) (W : SW.Idx → EReal) (bias : SB.Idx → EReal) (A Bt : SA.Idx → EReal)
    (b : Fin 8) (s : Fin 512) (n : Fin 4096) : EReal :=
  (∑ k : Fin 4096, x (ix3 b s k) * W (ix2 k n) + ∑ r : Fin 16, proj x A b s r * Bt (ix2 r n)) + bias (ix2 0 n)

/-- The whole result array. -/
def G (x : SX.Idx → EReal) (W : SW.Idx → EReal) (bias : SB.Idx → EReal) (A Bt : SA.Idx → EReal) : SX.Idx → EReal :=
  fun i => entry x W bias A Bt (i 0) (i 1) (i 2)

theorem G_apply (x : SX.Idx → EReal) (W : SW.Idx → EReal) (bias : SB.Idx → EReal) (A Bt : SA.Idx → EReal)
    (b : Fin 8) (s : Fin 512) (n : Fin 4096) : G x W bias A Bt (ix3 b s n) = entry x W bias A Bt b s n := rfl

end Cert.Spec

end
-- ==== Proof.KernValue.lean ====
/-
  The program's result against the specification.

  The region leaves the 4096 × 4096 array result, and the host splits its row axis back into 8 × 512: entry (b, s, n) of
  the program's result is result(b · 512 + s, n). Reading the arrays the region found in terms of the arguments — row
  b · 512 + s of the flattened x is row (b, s) of x; entry (n / 512, k, n % 512) of the re-laid W is W(k, n); entry (k, r)
  of the transposed A is A(r, k); Bt and the bias row are the arguments themselves — turns result(b · 512 + s, n) into
      ( Σ_k x(b,s,k) · W(k,n) + Σ_r ( Σ_k x(b,s,k) · A(r,k) ) · Bt(r,n) ) + bias(0,n),
  term for term the specification's entry: no sum is reordered and no law of arithmetic is used.
  The five argument arrays end as they were launched: none is written by the host lines or by the region.
-/
import proofs.«143460_g2000706549906588_pallasbulk_644_8_alg».proof.Proof.KernFinal
import proofs.«143460_g2000706549906588_pallasbulk_644_8_alg».proof.Proof.KernHost
import proofs.«143460_g2000706549906588_pallasbulk_644_8_alg».proof.Proof.Spec
import proofs.«143460_g2000706549906588_pallasbulk_644_8_alg».proof.Proof.LibAxes
import Idealize.ShloMosaic.Lib.StableHlo.Run

set_option maxRecDepth 16384

noncomputable section

namespace Cert.KernelIdeal.KValue

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen
open scoped BigOperators

variable (m : (ℓ : Loc nD τ sig) → Buf (Elt Ideal) ℓ)

/-- result(b · 512 + s, n) is the specification's entry at (b, s, n). -/
theorem gmat_apply (c : Dev nD) (b : Fin 8) (s : Fin 512) (n : Fin 4096) (R : Fin 4096) (hR : R.val = b.val * 512 + s.val) :
    KFinal.Gmat m c (ix2 R n) = Cert.Spec.entry (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b s n := by
  have hn : n.val = (KFinal.colTile n).val * 512 + (KFinal.colPos n).val := by
    show n.val = n.val / 512 * 512 + n.val % 512
    omega
  unfold KFinal.Gmat KInv.entryAt Cert.Spec.entry
  refine congrArg₂ (· + ·) (congrArg₂ (· + ·) ?_ ?_) (congrFun (V_main_arg2 m c) (ix2 (0 : Fin 1) n))
  · exact Finset.sum_congr rfl fun k _ =>
      congrArg₂ (· * ·) (KHost.v0_apply m c b s k R hR) (KHost.v3_apply m c (KFinal.colTile n) k (KFinal.colPos n) n hn)
  · refine Finset.sum_congr rfl fun r _ => congrArg₂ (· * ·) ?_ (KHost.v6_apply m c (ix2 r n))
    unfold KInv.projAt Cert.Spec.proj
    exact Finset.sum_congr rfl fun k _ =>
      congrArg₂ (· * ·) (KHost.v0_apply m c b s k R hR) (KHost.v5_apply m c k r)

/-- The host's last line splits the row axis of result: the program's result is the specification's array. -/
theorem tail_eq (c : Dev nD) :
    Pipeline.afterTail₀ cfgs (dats m) 0 (V0 m) [hostOps1] c main_v8 = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Pipeline.afterTail₀
  show StableHlo.after hostOps1 _ (Proc.devRef .tc main_v8) = _
  after_results
  have hw : Pipeline.withArrays (cfgs 0).spec c (V0 m c) (fun w => (dats m 0 c).arrAt w (cfgs 0).N) (Proc.devRef .tc main_v7)
      = KFinal.Gmat m c :=
    (Pipeline.withArrays_arr spec0 launch0.win.arr_inj c _ _ 5).trans (KFinal.final m c)
  refine funext fun i => ?_
  obtain ⟨b, s, n, rfl⟩ : ∃ (b : Fin 8) (s : Fin 512) (n : Fin 4096), i = ix3 b s n := ⟨i 0, i 1, i 2, eq_ix3 i⟩
  obtain ⟨R, hR⟩ : ∃ R : Fin 4096, R.val = b.val * 512 + s.val := ⟨⟨_, by omega⟩, rfl⟩
  refine Eq.trans ?_ (gmat_apply m c b s n R hR)
  show shapeCast S8x512x4096 (Pipeline.withArrays (cfgs 0).spec c (V0 m c) (fun w => (dats m 0 c).arrAt w (cfgs 0).N)
    (Proc.devRef .tc main_v7)) shapeCasts_S4096x4096_S8x512x4096 (ix3 b s n) = KFinal.Gmat m c (ix2 R n)
  rw [hw]
  exact Cert.LibAxes.shapeCast_nc_abc_apply (KFinal.Gmat m c) shapeCasts_S4096x4096_S8x512x4096 b s n R hR

variable (ρ : Dev nD → PrngReg)

/-- Every weakly fair execution of the program terminates without a fault, with its result at the specification's array
    of the launch contents of the five arguments, and the five arguments as launched. -/
theorem run : θ_run (defs (F := Ideal)) (onTc (τ := τ) (main (F := Ideal))) ⟨m, fun _ => 0, ρ⟩ (fun r => ∀ c : Dev nD,
      r.2.mem ((c.tc : Thread nD τ).loc main_v8) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 4).trans (((dats m 0 c).arrAt_in 4 rfl _).trans ((A_eq m c 4).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (Gen.run_main m ρ)

end Cert.KernelIdeal.KValue

end
-- ==== Proof.RefPieces.lean ====
/-
  What one step of the reference kernel leaves behind, as values. The kernel walks the contraction in four blocks of
  1024 (the innermost grid axis) and keeps a 512 × 512 accumulator between the steps:
  * the first step of a sweep stores the reset value and then the reset value plus the block's product: its accumulator
    ends at the accumulation step applied to the reset value;
  * a middle step leaves the accumulation step applied to what the step before left;
  * the last step does the same to the accumulator and then writes the output block: the last step's output formula
    applied to the UPDATED accumulator.
  Each statement reads the step's covering store back as its stored value, the loads reading whole buffers.
-/
import proofs.«143460_g2000706549906588_pallasbulk_644_8_alg».proof.Proof.Gen.ReferenceIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.ReferenceIdeal.RefPieces

open Cert.ReferenceIdeal Cert.ReferenceIdeal.Gen

variable {F : FTy → Type} [FloatOps F]

theorem hz : (![0, 0] : Fin 2 → Nat) = fun _ => 0 := funext fun a => by fin_cases a <;> rfl

/-- A first step's accumulator: the block's product added to the reset value. -/
theorem sout_A (c : Dev nD) (i : grid0.Coords) (arg3 : Memref sig .tc .vmem S512x16 .f32) (harg3 : arg3.IsWhole) (arg4 : Memref sig .tc .vmem S512x1024 .f32) (harg4 : arg4.IsWhole) (arg5 : Memref sig .tc .vmem S1024x512 .f32) (harg5 : arg5.IsWhole) (arg6 : Memref sig .tc .vmem S16x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : cond0_0 i) (hc1 : ¬cond0_1 i)
    (x0 : Vec F S512x16 .f32) (x1 : Vec F S512x1024 .f32) (x2 : Vec F S1024x512 .f32) (x3 : Vec F S16x512 .f32) (x4 : Vec F S1x512 .f32) :
    sout0_A_0 c i arg3 harg3 arg4 harg4 arg5 harg5 arg6 harg6 arg7 harg7 arg8 harg8 arg9 harg9 hc0 hc1 x0 x1 x2 x3 x4 = k0_pay2 (k0_pay1 (F := F)) x1 x2 := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S512x512) hz, View.readCov_unit_zero (S := S512x512) _ hz]
  simp only [View.readAt_eq_ld, harg3.read_unread, harg4.read_unread, harg5.read_unread, harg6.read_unread, harg7.read_unread, harg9.read_unread,
    View.ld_unit_zero (S := S512x512) hz, View.ld_unit_zero (S := S512x1024) hz, View.ld_unit_zero (S := S1024x512) hz,
    View.ld_unit_zero (S := S512x16) hz, View.ld_unit_zero (S := S16x512) hz, View.ld_unit_zero (S := S1x512) hz]

/-- A middle step's accumulator: the block's product added to what the step before left. -/
theorem sout_B (c : Dev nD) (i : grid0.Coords) (arg3 : Memref sig .tc .vmem S512x16 .f32) (harg3 : arg3.IsWhole) (arg4 : Memref sig .tc .vmem S512x1024 .f32) (harg4 : arg4.IsWhole) (arg5 : Memref sig .tc .vmem S1024x512 .f32) (harg5 : arg5.IsWhole) (arg6 : Memref sig .tc .vmem S16x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : ¬cond0_1 i)
    (x0 : Vec F S512x16 .f32) (x1 : Vec F S512x1024 .f32) (x2 : Vec F S1024x512 .f32) (x3 : Vec F S16x512 .f32) (x4 : Vec F S1x512 .f32) (xs0 : Vec F S512x512 .f32) :
    sout0_B_0 c i arg3 harg3 arg4 harg4 arg5 harg5 arg6 harg6 arg7 harg7 arg8 harg8 arg9 harg9 hc0 hc1 x0 x1 x2 x3 x4 xs0 = k0_pay2 xs0 x1 x2 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  rw [View.canon_unit_zero hz]
  simp only [View.readAt_eq_ld, harg3.read_unread, harg4.read_unread, harg5.read_unread, harg6.read_unread, harg7.read_unread, harg9.read_unread,
    View.ld_unit_zero (S := S512x512) hz, View.ld_unit_zero (S := S512x1024) hz, View.ld_unit_zero (S := S1024x512) hz,
    View.ld_unit_zero (S := S512x16) hz, View.ld_unit_zero (S := S16x512) hz, View.ld_unit_zero (S := S1x512) hz]

/-- The last step's accumulator: the same. -/
theorem sout_C (c : Dev nD) (i : grid0.Coords) (arg3 : Memref sig .tc .vmem S512x16 .f32) (harg3 : arg3.IsWhole) (arg4 : Memref sig .tc .vmem S512x1024 .f32) (harg4 : arg4.IsWhole) (arg5 : Memref sig .tc .vmem S1024x512 .f32) (harg5 : arg5.IsWhole) (arg6 : Memref sig .tc .vmem S16x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x16 .f32) (x1 : Vec F S512x1024 .f32) (x2 : Vec F S1024x512 .f32) (x3 : Vec F S16x512 .f32) (x4 : Vec F S1x512 .f32) (xs0 : Vec F S512x512 .f32) :
    sout0_C_0 c i arg3 harg3 arg4 harg4 arg5 harg5 arg6 harg6 arg7 harg7 arg8 harg8 arg9 harg9 hc0 hc1 x0 x1 x2 x3 x4 xs0 = k0_pay2 xs0 x1 x2 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  simp only [View.readAt_eq_ld, harg3.read_unread, harg4.read_unread, harg5.read_unread, harg6.read_unread, harg7.read_unread, harg9.read_unread,
    View.ld_unit_zero (S := S512x512) hz, View.ld_unit_zero (S := S512x1024) hz, View.ld_unit_zero (S := S1024x512) hz,
    View.ld_unit_zero (S := S512x16) hz, View.ld_unit_zero (S := S16x512) hz, View.ld_unit_zero (S := S1x512) hz]

/-- The last step's output block: the output formula over the updated accumulator. -/
theorem out_C (c : Dev nD) (i : grid0.Coords) (arg3 : Memref sig .tc .vmem S512x16 .f32) (harg3 : arg3.IsWhole) (arg4 : Memref sig .tc .vmem S512x1024 .f32) (harg4 : arg4.IsWhole) (arg5 : Memref sig .tc .vmem S1024x512 .f32) (harg5 : arg5.IsWhole) (arg6 : Memref sig .tc .vmem S16x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x16 .f32) (x1 : Vec F S512x1024 .f32) (x2 : Vec F S1024x512 .f32) (x3 : Vec F S16x512 .f32) (x4 : Vec F S1x512 .f32) (xs0 : Vec F S512x512 .f32) :
    out0_C_5 c i arg3 harg3 arg4 harg4 arg5 harg5 arg6 harg6 arg7 harg7 arg8 harg8 arg9 harg9 hc0 hc1 x0 x1 x2 x3 x4 xs0 = k0_pay3 x0 x3 (k0_pay2 xs0 x1 x2) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz, View.readCov_unit_zero (S := S512x512) _ hz]
  simp only [View.readAt_eq_ld, harg3.read_unread, harg4.read_unread, harg5.read_unread, harg6.read_unread, harg7.read_unread, harg9.read_unread,
    View.ld_unit_zero (S := S512x512) hz, View.ld_unit_zero (S := S512x1024) hz, View.ld_unit_zero (S := S1024x512) hz,
    View.ld_unit_zero (S := S512x16) hz, View.ld_unit_zero (S := S16x512) hz, View.ld_unit_zero (S := S1x512) hz]

end Cert.ReferenceIdeal.RefPieces

end
-- ==== Proof.LibPlainDot.lean ====
/-
  A product of two matrices whose dimension numbers are the plain ones — no batch axis, the left factor's axis 1
  contracted with the right factor's axis 0, the kept axes the left factor's rows and the right factor's columns —
  read at an entry (p, q): into the zero accumulator it is Σ_k l(p,k) · r(k,q). The two facts a reading needs about
  the kept coordinates (the left factor is read in row p, the right factor in column q) are proved here once from the
  dimension numbers' lists, for any record with those lists.
  General: nothing here depends on a particular program.
-/
import proofs.«143460_g2000706549906588_pallasbulk_644_8_alg».proof.Proof.LibProductIx

noncomputable section

open scoped BigOperators

namespace Cert.LibPlainDot

open Idealize.ShloMosaic Idealize.ShloMosaic.ValueIdx

variable {A B K : Nat}

/-- The left factor is read in the row of the result's entry. -/
theorem lhs_row (d : DotDims (⟨2, ![A, K]⟩ : Shape) (⟨2, ![K, B]⟩ : Shape) (⟨2, ![A, B]⟩ : Shape))
    (hlb : d.lhsBatch = []) (hln : d.lhsNonContracting = [(0 : Fin 2)])
    (j : (⟨2, ![A, B]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln])

/-- The right factor is read in the column of the result's entry. -/
theorem rhs_col (d : DotDims (⟨2, ![A, K]⟩ : Shape) (⟨2, ![K, B]⟩ : Shape) (⟨2, ![A, B]⟩ : Shape))
    (hlb : d.lhsBatch = []) (hln : d.lhsNonContracting = [(0 : Fin 2)])
    (hrb : d.rhsBatch = []) (hrn : d.rhsNonContracting = [(1 : Fin 2)])
    (j : (⟨2, ![A, B]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln, hrn])

/-- The contraction sum of a plain product at (p, q). -/
theorem sum_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) :=
  Cert.LibProductIx.sum_rows_cols d hr hs hlc hrc (lhs_row d hlb hln) (rhs_col d hlb hln hrb hrn) l r p q

/-- A plain product into the zero accumulator, at (p, q). -/
theorem matmul_zero_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (⟨2, ![A, B]⟩ : Shape) .f32 0x00000000#32) (ix2 p q)
      = ∑ k : Fin K, l (ix2 p k) * r (ix2 k q) := by
  rw [Ideal.matmul_constant_zero_apply]
  exact sum_at d hr hs hlc hrc hlb hln hrb hrn l r p q

/-- A host product with the plain dimension numbers, at (p, q). -/
theorem dotGeneral_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision) (sched : HostSchedule)
    (l : FVec Ideal (⟨2, ![A, K]⟩ : Shape) φ₁) (r : FVec Ideal (⟨2, ![K, B]⟩ : Shape) φ₂) (p : Fin A) (q : Fin B) :
    FloatOps.dotGeneral d prec sched l r (ix2 p q) = ∑ k : Fin K, l (ix2 p k) * r (ix2 k q) := by
  rw [Ideal.dotGeneral_apply]
  exact sum_at d hr hs hlc hrc hlb hln hrb hrn l r p q

end Cert.LibPlainDot

end
-- ==== Proof.RefPay.lean ====
/-
  The reference kernel's three stored values, read at an entry (p, q) of the 512 × 512 block, on the extended reals:
  * the reset value is 0;
  * the accumulation step stores acc(p,q) + Σ_{k<1024} x(p,k) · w(k,q), for the accumulator acc, the 512 × 1024
    block x of the activations and the 1024 × 512 block w of the weights;
  * the last step's output is (acc(p,q) + Σ_{r<16} xa(p,r) · bt(r,q)) + bias(0,q), for the 512 × 16 block xa of
    the projected activations, the 16 × 512 block bt of the second factor and the 1 × 512 block of the bias.
-/
import proofs.«143460_g2000706549906588_pallasbulk_644_8_alg».proof.Proof.Gen.ReferenceIdeal.Skeleton
import proofs.«143460_g2000706549906588_pallasbulk_644_8_alg».proof.Proof.LibPlainDot
import Idealize.ShloMosaic.Lib.Pipeline.Value
import Idealize.ShloMosaic.Lib.ValueLayout
import Idealize.ShloMosaic.PureOps.Ideal.Laws

noncomputable section

open scoped BigOperators

namespace Cert.ReferenceIdeal.RefPay

open Idealize.ShloMosaic Idealize.ShloMosaic.ValueIdx Cert.ReferenceIdeal Cert.ReferenceIdeal.Gen

/-- The reset value at an entry. -/
theorem pay1_at (p q : Fin 512) : k0_pay1 (F := Ideal) (ix2 p q) = 0 := by
  unfold k0_pay1
  rw [shapeCast_self]
  show Ideal.ofBits .f32 0x00000000#32 = 0
  exact Ideal.ofBits_zero_f32

/-- The accumulation step's stored value at an entry. -/
theorem pay2_at (v3 : Vec Ideal S512x512 .f32) (v4 : Vec Ideal S512x1024 .f32) (v6 : Vec Ideal S1024x512 .f32) (p q : Fin 512) :
    k0_pay2 v3 v4 v6 (ix2 p q) = v3 (ix2 p q) + ∑ k : Fin 1024, v4 (ix2 p k) * v6 (ix2 k q) := by
  unfold k0_pay2
  rw [shapeCast_self, shapeCast_self]
  show v3 (ix2 p q) + FloatOps.matmul (F := Ideal) dot_S512x1024_S1024x512_S512x512_1_0_0_1_n_n none v4 v6 (constant (F := Ideal) S512x512 .f32 0x00000000#32) (ix2 p q) = _
  rw [Cert.LibPlainDot.matmul_zero_at dot_S512x1024_S1024x512_S512x512_1_0_0_1_n_n rfl rfl rfl rfl rfl rfl rfl rfl]

/-- The last step's output at an entry. -/
theorem pay3_at (v15 : Vec Ideal S512x16 .f32) (v17 : Vec Ideal S16x512 .f32) (v19 : Vec Ideal S512x512 .f32) (v21 : Vec Ideal S1x512 .f32)
    (p q : Fin 512) :
    k0_pay3 v15 v17 v19 v21 (ix2 p q)
      = (v19 (ix2 p q) + ∑ r : Fin 16, v15 (ix2 p r) * v17 (ix2 r q)) + v21 (ix2 (0 : Fin 1) q) := by
  unfold k0_pay3
  rw [shapeCast_self]
  show (v19 (ix2 p q) + FloatOps.matmul (F := Ideal) dot_S512x16_S16x512_S512x512_1_0_0_1_n_n none v15 v17 (constant (F := Ideal) S512x512 .f32 0x00000000#32) (ix2 p q))
      + broadcastTo S512x512 v21 broadcasts_S1x512_S512x512 (ix2 p q) = _
  rw [Cert.LibPlainDot.matmul_zero_at dot_S512x16_S16x512_S512x512_1_0_0_1_n_n rfl rfl rfl rfl rfl rfl rfl rfl]
  congr 1
  refine broadcastTo_apply v21 broadcasts_S1x512_S512x512 (ix2 p q) (ix2 (0 : Fin 1) q) fun ax => ?_
  match ax with
  | ⟨0, _⟩ => rfl
  | ⟨1, _⟩ => rfl

end Cert.ReferenceIdeal.RefPay

end
-- ==== Proof.RefBlocks.lean ====
/-
  The blocks the reference kernel's windows read, at an entry. The grid has 8 × 8 × 4 points t, walked with the
  contraction's block index k = t mod 4 fastest, then the column tile j = (t / 4) mod 8, then the row tile i = t / 32.
  A window's block at t is its array read through the rectangle at (index × block size) on every axis, so an entry of
  a block is the array's entry at index × size + the coordinate inside the block:
  * the projected activations' block (512 × 16) is rows i·512 + p;
  * the activations' block (512 × 1024) is rows i·512 + p, columns k·1024 + l;
  * the weights' block (1024 × 512) is rows k·1024 + l, columns j·512 + q;
  * the second factor's block (16 × 512) and the bias block (1 × 512) are columns j·512 + q.
-/
import proofs.«143460_g2000706549906588_pallasbulk_644_8_alg».proof.Proof.Gen.ReferenceIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.ReferenceIdeal.RefBlocks

open Cert.ReferenceIdeal Cert.ReferenceIdeal.Gen

variable {F : FTy → Type} [FloatOps F]
variable (m : (ℓ : Loc nD τ sig) → Buf (Elt F) ℓ)

/-- The index maps over the grid: which block each window is on at point t. -/
theorem idx_facts : ∀ t : Fin cfg0.N,
    win0_0.index t 0 = t.val / 32 ∧ win0_0.index t 1 = 0
    ∧ win0_1.index t 0 = t.val / 32 ∧ win0_1.index t 1 = t.val % 4
    ∧ win0_2.index t 0 = t.val % 4 ∧ win0_2.index t 1 = (t.val / 4) % 8
    ∧ win0_3.index t 0 = 0 ∧ win0_3.index t 1 = (t.val / 4) % 8
    ∧ win0_4.index t 0 = 0 ∧ win0_4.index t 1 = (t.val / 4) % 8
    ∧ win0_5.index t 0 = t.val / 32 ∧ win0_5.index t 1 = (t.val / 4) % 8 :=
  (by decide +kernel : ∀ t : Fin grid0.N, _)

/-- The projected activations' block at an entry. -/
theorem iblk0_at (c : Dev nD) (t : Fin cfg0.N) (p : Fin 512) (r : Fin 16) (row : Fin 4096)
    (hrow : row.val = (t.val / 32) * 512 + p.val) :
    (iblk m c 0 t : Vec F S512x16 .f32) (ix2 p r) = V m c main_v4 (ix2 row r) := by
  have hi := idx_facts t
  unfold iblk
  rw [View.read_apply]
  show V m c main_v4 _ = V m c main_v4 _
  congr 1
  funext a
  apply Fin.ext
  match a with
  | ⟨0, _⟩ => show win0_0.index t 0 * 512 + 1 * p.val = row.val; rw [hi.1, hrow]; omega
  | ⟨1, _⟩ => show win0_0.index t 1 * 16 + 1 * r.val = r.val; rw [hi.2.1]; omega

/-- The activations' block at an entry. -/
theorem iblk1_at (c : Dev nD) (t : Fin cfg0.N) (p : Fin 512) (l : Fin 1024) (row col : Fin 4096)
    (hrow : row.val = (t.val / 32) * 512 + p.val) (hcol : col.val = (t.val % 4) * 1024 + l.val) :
    (iblk m c 1 t : Vec F S512x1024 .f32) (ix2 p l) = V m c main_v1 (ix2 row col) := by
  have hi := idx_facts t
  unfold iblk
  rw [View.read_apply]
  show V m c main_v1 _ = V m c main_v1 _
  congr 1
  funext a
  apply Fin.ext
  match a with
  | ⟨0, _⟩ => show win0_1.index t 0 * 512 + 1 * p.val = row.val; rw [hi.2.2.1, hrow]; omega
  | ⟨1, _⟩ => show win0_1.index t 1 * 1024 + 1 * l.val = col.val; rw [hi.2.2.2.1, hcol]; omega

/-- The weights' block at an entry. -/
theorem iblk2_at (c : Dev nD) (t : Fin cfg0.N) (l : Fin 1024) (q : Fin 512) (row col : Fin 4096)
    (hrow : row.val = (t.val % 4) * 1024 + l.val) (hcol : col.val = ((t.val / 4) % 8) * 512 + q.val) :
    (iblk m c 2 t : Vec F S1024x512 .f32) (ix2 l q) = V m c main_arg1 (ix2 row col) := by
  have hi := idx_facts t
  unfold iblk
  rw [View.read_apply]
  show V m c main_arg1 _ = V m c main_arg1 _
  congr 1
  funext a
  apply Fin.ext
  match a with
  | ⟨0, _⟩ => show win0_2.index t 0 * 1024 + 1 * l.val = row.val; rw [hi.2.2.2.2.1, hrow]; omega
  | ⟨1, _⟩ => show win0_2.index t 1 * 512 + 1 * q.val = col.val; rw [hi.2.2.2.2.2.1, hcol]; omega

/-- The second factor's block at an entry. -/
theorem iblk3_at (c : Dev nD) (t : Fin cfg0.N) (r : Fin 16) (q : Fin 512) (col : Fin 4096)
    (hcol : col.val = ((t.val / 4) % 8) * 512 + q.val) :
    (iblk m c 3 t : Vec F S16x512 .f32) (ix2 r q) = V m c main_arg4 (ix2 r col) := by
  have hi := idx_facts t
  unfold iblk
  rw [View.read_apply]
  show V m c main_arg4 _ = V m c main_arg4 _
  congr 1
  funext a
  apply Fin.ext
  match a with
  | ⟨0, _⟩ => show win0_3.index t 0 * 16 + 1 * r.val = r.val; rw [hi.2.2.2.2.2.2.1]; omega
  | ⟨1, _⟩ => show win0_3.index t 1 * 512 + 1 * q.val = col.val; rw [hi.2.2.2.2.2.2.2.1, hcol]; omega

/-- The bias block at an entry. -/
theorem iblk4_at (c : Dev nD) (t : Fin cfg0.N) (z : Fin 1) (q : Fin 512) (col : Fin 4096)
    (hcol : col.val = ((t.val / 4) % 8) * 512 + q.val) :
    (iblk m c 4 t : Vec F S1x512 .f32) (ix2 z q) = V m c main_arg2 (ix2 (0 : Fin 1) col) := by
  have hi := idx_facts t
  have hz : z.val = 0 := by omega
  unfold iblk
  rw [View.read_apply]
  show V m c main_arg2 _ = V m c main_arg2 _
  congr 1
  funext a
  apply Fin.ext
  match a with
  | ⟨0, _⟩ => show win0_4.index t 0 * 1 + 1 * z.val = 0; rw [hi.2.2.2.2.2.2.2.2.1, hz]
  | ⟨1, _⟩ => show win0_4.index t 1 * 512 + 1 * q.val = col.val; rw [hi.2.2.2.2.2.2.2.2.2.1, hcol]; omega

end Cert.ReferenceIdeal.RefBlocks

end
-- ==== Proof.LibPrefixSum.lean ====
/-
  Prefix sums over an initial segment of the naturals, in any additive commutative monoid.

  A sum of the terms f 0, …, f (a + b − 1) is the sum of the first a of them plus the b terms that follow; so the
  sum of the first (k + 1) · q terms is the sum of the first k · q plus block k, the q terms f (k · q + j), j < q.
  This is the step of an accumulation that walks a long sum block by block: after block k the accumulator holds the
  prefix sum up to (k + 1) · q, and after the last block the whole sum, which is also the sum over Fin n.
  General: nothing here depends on a particular program.
-/
import Mathlib.Algebra.BigOperators.Fin
import Mathlib.Algebra.BigOperators.Group.Finset.Basic

open scoped BigOperators

namespace LibPrefixSum

variable {M : Type*} [AddCommMonoid M]

/-- The first a + b terms are the first a plus the b after them. -/
theorem prefix_add (f : ℕ → M) (a b : ℕ) :
    ∑ l ∈ Finset.range (a + b), f l = ∑ l ∈ Finset.range a, f l + ∑ j : Fin b, f (a + j.val) := by
  rw [Finset.sum_range_add]
  exact congrArg _ (Finset.sum_range fun x => f (a + x))

/-- The first (k + 1) · q terms are the first k · q plus block k. -/
theorem prefix_block (f : ℕ → M) (k q : ℕ) :
    ∑ l ∈ Finset.range ((k + 1) * q), f l = ∑ l ∈ Finset.range (k * q), f l + ∑ j : Fin q, f (k * q + j.val) := by
  rw [Nat.succ_mul, prefix_add]

/-- The first block alone: the first q terms, from zero. -/
theorem prefix_first (f : ℕ → M) (q : ℕ) :
    ∑ l ∈ Finset.range ((0 + 1) * q), f l = 0 + ∑ j : Fin q, f (0 * q + j.val) := by
  rw [prefix_block, Nat.zero_mul, Finset.range_zero, Finset.sum_empty]

/-- A prefix sum of n terms is the sum over Fin n. -/
theorem prefix_all (f : ℕ → M) (n : ℕ) : ∑ l ∈ Finset.range n, f l = ∑ k : Fin n, f k.val :=
  Finset.sum_range f

end LibPrefixSum
-- ==== Proof.RefInv.lean ====
/-
  The reference kernel's accumulator, point by point. At grid point n the row tile is i = n / 32, the column tile
  j = (n / 4) mod 8 and the contraction block k = n mod 4. After point n the accumulator's entry (p, q) is the prefix
  sum of the first (k + 1) · 1024 terms X(i·512 + p, l) · W(l, j·512 + q) of the contraction: the first step of a
  sweep stores 0 plus the first block's terms, every later step adds its block's 1024 terms to what the step before
  left. After the last step (k = 3) the prefix is the whole sum over l < 4096, and that step's output block is
  (whole sum + Σ_ρ XA(i·512 + p, ρ) · Bt(ρ, j·512 + q)) + bias(0, j·512 + q).
-/
import proofs.«143460_g2000706549906588_pallasbulk_644_8_alg».proof.Proof.RefPieces
import proofs.«143460_g2000706549906588_pallasbulk_644_8_alg».proof.Proof.RefPay
import proofs.«143460_g2000706549906588_pallasbulk_644_8_alg».proof.Proof.RefBlocks
import proofs.«143460_g2000706549906588_pallasbulk_644_8_alg».proof.Proof.LibPrefixSum

set_option maxRecDepth 16384

noncomputable section

open scoped BigOperators

open Idealize.ShloMosaic Idealize.ShloMosaic.TcCoe Idealize.SL.Sem Idealize.ShloMosaic.ValueIdx

namespace Cert.ReferenceIdeal.RefInv

open Cert.ReferenceIdeal Cert.ReferenceIdeal.Gen Cert.ReferenceIdeal.RefPieces Cert.ReferenceIdeal.RefPay Cert.ReferenceIdeal.RefBlocks

variable (m : (ℓ : Loc nD τ sig) → Buf (Elt Ideal) ℓ)

/-- The arrays the kernel's windows read, as arrays of extended reals: the activations matrix, the weights, the projected
    activations, the second factor and the bias row, as the region finds them. -/
abbrev X (c : Dev nD) : S4096x4096.Idx → EReal := V m c main_v1
abbrev W (c : Dev nD) : S4096x4096.Idx → EReal := V m c main_arg1
abbrev XA (c : Dev nD) : S4096x16.Idx → EReal := V m c main_v4
abbrev Bt (c : Dev nD) : S16x4096.Idx → EReal := V m c main_arg4
abbrev Bi (c : Dev nD) : S1x4096.Idx → EReal := V m c main_arg2
/-- The activations' and the weights' blocks at a point. -/
abbrev blk1 (c : Dev nD) (t : Fin cfg0.N) : S512x1024.Idx → EReal := iblk m c 1 t
abbrev blk2 (c : Dev nD) (t : Fin cfg0.N) : S1024x512.Idx → EReal := iblk m c 2 t
/-- The projected activations', the second factor's and the bias row's blocks at a point. -/
abbrev blk0 (c : Dev nD) (t : Fin cfg0.N) : S512x16.Idx → EReal := iblk m c 0 t
abbrev blk3 (c : Dev nD) (t : Fin cfg0.N) : S16x512.Idx → EReal := iblk m c 3 t
abbrev blk4 (c : Dev nD) (t : Fin cfg0.N) : S1x512.Idx → EReal := iblk m c 4 t

/-- Term l of the contraction for row r and column s (zero past the end, so that prefix sums are over naturals). -/
def term (X W : S4096x4096.Idx → EReal) (r s : Fin 4096) (l : ℕ) : EReal :=
  if h : l < 4096 then X (ix2 r ⟨l, h⟩) * W (ix2 ⟨l, h⟩ s) else 0

/-- The array row an entry's row p belongs to at point n, and the array column of its column q. -/
def rowAt (n : ℕ) (p : Fin 512) : Fin 4096 := ⟨((n / 32) * 512 + p.val) % 4096, Nat.mod_lt _ (by decide)⟩
def colAt (n : ℕ) (q : Fin 512) : Fin 4096 := ⟨(((n / 4) % 8) * 512 + q.val) % 4096, Nat.mod_lt _ (by decide)⟩

theorem rowAt_val (n : ℕ) (hn : n < 256) (p : Fin 512) : (rowAt n p).val = (n / 32) * 512 + p.val := by
  show ((n / 32) * 512 + p.val) % 4096 = _
  have := p.isLt
  omega

theorem colAt_val (n : ℕ) (q : Fin 512) : (colAt n q).val = ((n / 4) % 8) * 512 + q.val := by
  show (((n / 4) % 8) * 512 + q.val) % 4096 = _
  have := q.isLt
  omega

/-- The block product a step adds, as the step's 1024 terms of the contraction. -/
theorem block_sum (c : Dev nD) (t : Fin cfg0.N) (p q : Fin 512) :
    ∑ k : Fin 1024, blk1 m c t (ix2 p k) * blk2 m c t (ix2 k q)
      = ∑ j : Fin 1024, term (X m c) (W m c) (rowAt t.val p) (colAt t.val q) ((t.val % 4) * 1024 + j.val) := by
  have hN : t.val < 256 := lt_of_lt_of_eq t.isLt N_0
  refine Finset.sum_congr rfl fun k _ => ?_
  have hl : (t.val % 4) * 1024 + k.val < 4096 := by have := k.isLt; omega
  unfold term
  rw [dif_pos hl]
  exact congrArg₂ (fun a b : EReal => a * b) (iblk1_at m c t p k (rowAt t.val p) ⟨_, hl⟩ (rowAt_val t.val hN p) rfl)
    (iblk2_at m c t k q ⟨_, hl⟩ (colAt t.val q) rfl (colAt_val t.val q))

/-- THE ACCUMULATOR after point n: the prefix sum of the first (n mod 4 + 1) · 1024 terms. -/
theorem acc_eq (c : Dev nD) : ∀ (n : ℕ) (hn : n < cfg0.N) (p q : Fin 512),
    (outsAt0 m c n hn).2 (ix2 p q)
      = ∑ l ∈ Finset.range ((n % 4 + 1) * 1024), term (X m c) (W m c) (rowAt n p) (colAt n q) l := by
  intro n
  induction n with
  | zero =>
    intro hn p q
    rw [outsAt0_A m c ⟨0, hn⟩ rfl (by show ¬(0 % 4 = 3); decide)]
    dsimp only
    rw [sout_A, pay2_at, pay1_at, block_sum m c ⟨0, hn⟩ p q]
    exact (LibPrefixSum.prefix_first _ 1024).symm
  | succ n ih =>
    intro hn p q
    have hN : n + 1 < 256 := lt_of_lt_of_eq hn N_0
    by_cases h0 : (n + 1) % 4 = 0
    · rw [outsAt0_A m c ⟨n + 1, hn⟩ h0 (by dsimp only; omega)]
      dsimp only
      rw [sout_A, pay2_at, pay1_at, block_sum m c ⟨n + 1, hn⟩ p q]
      dsimp only
      rw [h0]
      exact (LibPrefixSum.prefix_first _ 1024).symm
    · have e1 : rowAt n p = rowAt (n + 1) p := Fin.ext (by rw [rowAt_val n (by omega), rowAt_val (n + 1) hN]; omega)
      have e2 : colAt n q = colAt (n + 1) q := Fin.ext (by rw [colAt_val, colAt_val]; omega)
      have e3 : n % 4 + 1 = (n + 1) % 4 := by omega
      by_cases h1 : (n + 1) % 4 = 3
      · rw [outsAt0_C m c ⟨n + 1, hn⟩ h0 h1]
        dsimp only
        rw [sout_C, pay2_at, block_sum m c ⟨n + 1, hn⟩ p q]
        show (outsAt0 m c n _).2 (ix2 p q) + _ = _
        rw [ih (Nat.lt_of_succ_lt hn) p q, e1, e2, e3]
        exact (LibPrefixSum.prefix_block _ ((n + 1) % 4) 1024).symm
      · rw [outsAt0_B m c ⟨n + 1, hn⟩ h0 h1]
        dsimp only
        rw [sout_B, pay2_at, block_sum m c ⟨n + 1, hn⟩ p q]
        show (outsAt0 m c n _).2 (ix2 p q) + _ = _
        rw [ih (Nat.lt_of_succ_lt hn) p q, e1, e2, e3]
        exact (LibPrefixSum.prefix_block _ ((n + 1) % 4) 1024).symm

/-- After a last step the accumulator's entry is the whole contraction. -/
theorem acc_last (c : Dev nD) (t : Fin cfg0.N) (h3 : t.val % 4 = 3) (p q : Fin 512) :
    (outsAt0 m c t.val t.isLt).2 (ix2 p q)
      = ∑ k : Fin 4096, X m c (ix2 (rowAt t.val p) k) * W m c (ix2 k (colAt t.val q)) := by
  rw [acc_eq m c t.val t.isLt p q, h3, LibPrefixSum.prefix_all]
  refine Finset.sum_congr rfl fun k _ => ?_
  unfold term
  rw [dif_pos k.isLt]

/-- THE OUTPUT BLOCK a last step writes, at an entry. -/
theorem out_last (c : Dev nD) (t : Fin cfg0.N) (h3 : t.val % 4 = 3) (p q : Fin 512) :
    (outsAt0 m c t.val t.isLt).1 (ix2 p q)
      = (∑ k : Fin 4096, X m c (ix2 (rowAt t.val p) k) * W m c (ix2 k (colAt t.val q))
          + ∑ r : Fin 16, XA m c (ix2 (rowAt t.val p) r) * Bt m c (ix2 r (colAt t.val q)))
        + Bi m c (ix2 (0 : Fin 1) (colAt t.val q)) := by
  have hN : t.val < 256 := lt_of_lt_of_eq t.isLt N_0
  have h0 : ¬t.val % 4 = 0 := by omega
  have hacc := acc_last m c t h3 p q
  have hpay : (outsAt0 m c t.val t.isLt).1 (ix2 p q)
      = k0_pay3 (iblk m c 0 t) (iblk m c 3 t) ((outsAt0 m c t.val t.isLt).2) (iblk m c 4 t) (ix2 p q) := by
    rw [outsAt0_C m c t h0 h3]
    dsimp only
    rw [out_C, sout_C]
  have e03 : ∑ r : Fin 16, blk0 m c t (ix2 p r) * blk3 m c t (ix2 r q)
      = ∑ r : Fin 16, XA m c (ix2 (rowAt t.val p) r) * Bt m c (ix2 r (colAt t.val q)) :=
    Finset.sum_congr rfl fun r _ => congrArg₂ (fun a b : EReal => a * b)
      (iblk0_at m c t p r (rowAt t.val p) (rowAt_val t.val hN p)) (iblk3_at m c t r q (colAt t.val q) (colAt_val t.val q))
  have e4 : blk4 m c t (ix2 (0 : Fin 1) q) = Bi m c (ix2 (0 : Fin 1) (colAt t.val q)) :=
    iblk4_at m c t 0 q (colAt t.val q) (colAt_val t.val q)
  rw [hpay, pay3_at, hacc]
  exact congrArg₂ (fun a b : EReal => a + b)
    (congrArg (fun a : EReal => (∑ k : Fin 4096, X m c (ix2 (rowAt t.val p) k) * W m c (ix2 k (colAt t.val q))) + a) e03) e4

end Cert.ReferenceIdeal.RefInv

end
-- ==== Proof.RefHost.lean ====
/-
  The two arrays the reference's host lines prepare before the kernel, read at an entry on the extended reals.
  * The activations as a 4096 × 4096 matrix: the [8, 512, 4096] argument with its two leading axes merged (row
    r = b·512 + s), then padded by nothing — the padding widths are all zero, so every entry is inside the operand.
  * The projected activations, 4096 × 16: the host product of that matrix with the first factor transposed,
    Σ_k x(b,s,k) · A(ρ,k) at (r, ρ), again padded by nothing.
-/
import proofs.«143460_g2000706549906588_pallasbulk_644_8_alg».proof.Proof.Gen.ReferenceIdeal.Frame
import proofs.«143460_g2000706549906588_pallasbulk_644_8_alg».proof.Proof.LibPlainDot
import proofs.«143460_g2000706549906588_pallasbulk_644_8_alg».proof.Proof.LibAxes
import Idealize.ShloMosaic.Lib.Pipeline.Value
import Idealize.ShloMosaic.Lib.KernelVsHost
import Idealize.ShloMosaic.Lib.ValueLayout
import Idealize.ShloMosaic.Lib.StableHlo.Run
import Idealize.ShloMosaic.Lib.ValueIdx
import Idealize.ShloMosaic.Lib.Tactic

set_option maxRecDepth 16384

noncomputable section

open scoped BigOperators

open Idealize.ShloMosaic Idealize.ShloMosaic.TcCoe Idealize.SL.Sem Idealize.ShloMosaic.ValueIdx

namespace Cert.ReferenceIdeal.RefHost

open Cert.ReferenceIdeal Cert.ReferenceIdeal.Gen

variable (m : (ℓ : Loc nD τ sig) → Buf (Elt Ideal) ℓ)

/-- The arguments, as arrays of extended reals. -/
abbrev argX (c : Dev nD) : S8x512x4096.Idx → EReal := m ((c : Thread nD τ).loc main_arg0)
abbrev argW (c : Dev nD) : S4096x4096.Idx → EReal := m ((c : Thread nD τ).loc main_arg1)
abbrev argBias (c : Dev nD) : S1x4096.Idx → EReal := m ((c : Thread nD τ).loc main_arg2)
abbrev argA (c : Dev nD) : S16x4096.Idx → EReal := m ((c : Thread nD τ).loc main_arg3)
abbrev argBt (c : Dev nD) : S16x4096.Idx → EReal := m ((c : Thread nD τ).loc main_arg4)

/-- The activations merged to a matrix. -/
abbrev xmat (c : Dev nD) : FVec Ideal S4096x4096 .f32 :=
  shapeCast S4096x4096 (argX m c) shapeCasts_S8x512x4096_S4096x4096

/-- The first factor transposed. -/
abbrev amatT (c : Dev nD) : FVec Ideal S4096x16 .f32 :=
  transpose S4096x16 [1, 0] (argA m c) transposes_S16x4096_S4096x16_1_0

/-- What the kernel finds in its activations array: the merged matrix, padded by nothing. -/
theorem v1_eq (c : Dev nD) : (V m c main_v1 : S4096x4096.Idx → EReal)
    = pad S4096x4096 ![0, 0] ![0, 0] ![0, 0] (xmat m c)
        (sitofp (F := Ideal) .f32 (constantI S_ 32 0#32)) pads_S4096x4096_S4096x4096_000_000 h_S_ := by
  dsimp only [Gen.V, Gen.V0]
  simp only [Gen.hostOps0, Gen.hostOps0_1, Gen.hostOps0_2, Gen.hostOps0_3, List.flatten_cons, List.flatten_nil, List.append_nil, List.cons_append,
    List.nil_append]
  after_results
  rfl

/-- What it finds in its projected-activations array: the host product, padded by nothing. -/
theorem v4_eq (c : Dev nD) : (V m c main_v4 : S4096x16.Idx → EReal)
    = pad S4096x16 ![0, 0] ![0, 0] ![0, 0]
        (Host.dotGeneral (F := Ideal) (φ₁ := .f32) (φ₂ := .f32) dot_S4096x4096_S4096x16_S4096x16_1_0_0_1_n_n none (xmat m c) (amatT m c))
        (sitofp (F := Ideal) .f32 (constantI S_ 32 0#32)) pads_S4096x16_S4096x16_000_000 h_S_ := by
  dsimp only [Gen.V, Gen.V0]
  simp only [Gen.hostOps0, Gen.hostOps0_1, Gen.hostOps0_2, Gen.hostOps0_3, List.flatten_cons, List.flatten_nil, List.append_nil, List.cons_append,
    List.nil_append]
  after_results
  rfl

/-- A pad by nothing of a matrix, at an entry. -/
theorem pad_none_at {R C : Nat} (x : (⟨2, ![R, C]⟩ : Shape).Idx → EReal) {u : Shape} (v : u.Idx → EReal)
    (h : (⟨2, ![R, C]⟩ : Shape).Pads (![0, 0] : Fin 2 → Nat) ![0, 0] ![0, 0] ⟨2, ![R, C]⟩) (hu : 0 < u.numel) (r : Fin R) (k : Fin C) :
    pad (⟨2, ![R, C]⟩ : Shape) ![0, 0] ![0, 0] ![0, 0] x v h hu (ix2 r k) = x (ix2 r k) :=
  pad_apply_of_inside _ _ _ x v h hu (ix2 r k) (ix2 r k) fun a => by
    match a with
    | ⟨0, _⟩ => show r.val = 0 + r.val * (0 + 1); omega
    | ⟨1, _⟩ => show k.val = 0 + k.val * (0 + 1); omega

/-- The merged matrix at row r = b·512 + s. -/
theorem xmat_at (c : Dev nD) (b : Fin 8) (s : Fin 512) (k : Fin 4096) (r : Fin 4096) (hr : r.val = b.val * 512 + s.val) :
    xmat m c (ix2 r k) = argX m c (ix3 b s k) :=
  Cert.LibAxes.shapeCast_abc_nc_apply (argX m c) shapeCasts_S8x512x4096_S4096x4096 b s k r hr

/-- The activations array at row r = b·512 + s. -/
theorem v1_at (c : Dev nD) (b : Fin 8) (s : Fin 512) (k : Fin 4096) (r : Fin 4096) (hr : r.val = b.val * 512 + s.val) :
    (V m c main_v1 : S4096x4096.Idx → EReal) (ix2 r k) = argX m c (ix3 b s k) := by
  rw [v1_eq, pad_none_at, xmat_at m c b s k r hr]

/-- The projected-activations array at row r = b·512 + s: Σ_k x(b,s,k) · A(ρ,k). -/
theorem v4_at (c : Dev nD) (b : Fin 8) (s : Fin 512) (ρ : Fin 16) (r : Fin 4096) (hr : r.val = b.val * 512 + s.val) :
    (V m c main_v4 : S4096x16.Idx → EReal) (ix2 r ρ)
      = ∑ k : Fin 4096, argX m c (ix3 b s k) * argA m c (ix2 ρ k) := by
  rw [v4_eq, pad_none_at]
  show FloatOps.dotGeneral (F := Ideal) (φ₁ := .f32) (φ₂ := .f32) dot_S4096x4096_S4096x16_S4096x16_1_0_0_1_n_n none .single (xmat m c) (amatT m c) (ix2 r ρ) = _
  rw [Cert.LibPlainDot.dotGeneral_at dot_S4096x4096_S4096x16_S4096x16_1_0_0_1_n_n rfl rfl rfl rfl rfl rfl rfl rfl]
  refine Finset.sum_congr rfl fun k _ => ?_
  rw [xmat_at m c b s k r hr]
  exact congrArg _ (transpose_ix2_apply (argA m c) transposes_S16x4096_S4096x16_1_0 k ρ)

end Cert.ReferenceIdeal.RefHost

end
-- ==== Proof.RefFinal.lean ====
/-
  The reference's result. Each last step of a contraction sweep writes its 512 × 512 output block back to the
  4096 × 4096 result matrix at rows i·512 + p and columns j·512 + q; the 64 blocks tile the matrix, so after the
  kernel the matrix holds, at (r, n), the specification's entry for row (r / 512, r mod 512) and column n. The last
  host line splits the rows back into [8, 512], which is the specification's array.
-/
import proofs.«143460_g2000706549906588_pallasbulk_644_8_alg».proof.Proof.RefInv
import proofs.«143460_g2000706549906588_pallasbulk_644_8_alg».proof.Proof.RefHost
import proofs.«143460_g2000706549906588_pallasbulk_644_8_alg».proof.Proof.Spec

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.ReferenceIdeal.RefFinal

open Cert.ReferenceIdeal Cert.ReferenceIdeal.Gen Cert.ReferenceIdeal.RefInv Cert.ReferenceIdeal.RefHost Cert.ReferenceIdeal.RefBlocks

variable (m : (ℓ : Loc nD τ sig) → Buf (Elt Ideal) ℓ) (ρ : Dev nD → PrngReg)

/-- The specification's entry for matrix row r (row r mod 512 of slab r / 512) and column n. -/
def rowEntry (c : Dev nD) (r n : Fin 4096) : EReal :=
  Cert.Spec.entry (argX m c) (argW m c) (argBias m c) (argA m c) (argBt m c)
    ⟨r.val / 512, by have := r.isLt; omega⟩ ⟨r.val % 512, Nat.mod_lt _ (by decide)⟩ n

/-- The result matrix. -/
def gmat (c : Dev nD) : S4096x4096.Idx → EReal := fun i => rowEntry m c (i 0) (i 1)

/-- What a last step computes at array row r, column n is the specification's entry. -/
theorem entry_of_arrays (c : Dev nD) (r n : Fin 4096) :
    (∑ k : Fin 4096, X m c (ix2 r k) * W m c (ix2 k n) + ∑ ρ' : Fin 16, XA m c (ix2 r ρ') * Bt m c (ix2 ρ' n))
        + Bi m c (ix2 (0 : Fin 1) n) = rowEntry m c r n := by
  have hr : r.val = (⟨r.val / 512, by have := r.isLt; omega⟩ : Fin 8).val * 512 + (⟨r.val % 512, Nat.mod_lt _ (by decide)⟩ : Fin 512).val := by
    show r.val = r.val / 512 * 512 + r.val % 512
    omega
  have eW : W m c = argW m c := V_main_arg1 m c
  have eBt : Bt m c = argBt m c := V_main_arg4 m c
  have eBi : Bi m c = argBias m c := V_main_arg2 m c
  unfold rowEntry Cert.Spec.entry Cert.Spec.proj
  rw [eW, eBt, eBi]
  refine congrArg (fun a : EReal => a + argBias m c (ix2 (0 : Fin 1) n)) ?_
  refine congrArg₂ (fun a b : EReal => a + b) ?_ ?_
  · exact Finset.sum_congr rfl fun k _ => congrArg (fun a : EReal => a * argW m c (ix2 k n)) (v1_at m c _ _ k r hr)
  · exact Finset.sum_congr rfl fun ρ' _ => congrArg (fun a : EReal => a * argBt m c (ix2 ρ' n)) (v4_at m c _ _ ρ' r hr)

/-- WHAT A LAST STEP WRITES BACK is its block of the result matrix. -/
theorem flushed_eq (c : Dev nD) (t : Fin cfg0.N) (hf : (cfg0.win 5).flush t = true) :
    (dats m 0 c).flushed 5 t = ((cfg0.win 5).blk t).view.read (Elt Ideal) (gmat m c) := by
  have h3 : t.val % 4 = 3 := (flush0_5 t).mp hf
  have hN : t.val < 256 := lt_of_lt_of_eq t.isLt N_0
  have hi := idx_facts t
  show (cfg0.win 5).cut (grid0.coords t) ((dats m 0 c).after 5 t) = _
  rw [after0_5]
  funext j
  obtain ⟨p, q, rfl⟩ : ∃ (p q : Fin 512), j = ix2 p q := ⟨j 0, j 1, eq_ix2 j⟩
  show (outsAt0 m c t.val t.isLt).1 (ix2 p q) = gmat m c (((cfg0.win 5).blk t).view.emb (ix2 p q))
  have hemb : ((cfg0.win 5).blk t).view.emb (ix2 p q) = ix2 (rowAt t.val p) (colAt t.val q) := by
    funext a
    apply Fin.ext
    match a with
    | ⟨0, _⟩ => show win0_5.index t 0 * 512 + 1 * p.val = (rowAt t.val p).val; rw [hi.2.2.2.2.2.2.2.2.2.2.1, rowAt_val t.val hN p]; omega
    | ⟨1, _⟩ => show win0_5.index t 1 * 512 + 1 * q.val = (colAt t.val q).val; rw [hi.2.2.2.2.2.2.2.2.2.2.2, colAt_val t.val q]; omega
  rw [hemb, out_last m c t h3 p q]
  exact entry_of_arrays m c (rowAt t.val p) (colAt t.val q)

/-- An entry of the matrix is in a point's block iff each coordinate is in the block's range. -/
theorem mem_blk (t : Fin cfg0.N) (i : S4096x4096.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v5).slice (win0_5.rect t)).set ↔ _
  rw [View.set_slice_whole, Rect.mem_set_unit]
  exact Iff.rfl

/-- THE RESULT MATRIX after the kernel: the 64 last steps' blocks tile it. -/
theorem final (c : Dev nD) : (dats m 0 c).arrAt 5 cfg0.N = gmat m c :=
  (dats m 0 c).arrAt_eq_of_cover 5 (gmat m c) (flushed_eq m c) fun i => by
    have h0 : (i 0).val < 4096 := (i 0).isLt
    have h1 : (i 1).val < 4096 := (i 1).isLt
    have hlt : (((i 0).val / 512) * 8 + (i 1).val / 512) * 4 + 3 < cfg0.N := by
      rw [show cfg0.N = 256 from N_0]; omega
    refine ⟨⟨_, hlt⟩, (flush0_5 _).mpr (by show ((((i 0).val / 512) * 8 + (i 1).val / 512) * 4 + 3) % 4 = 3; omega), ?_⟩
    rw [mem_blk]
    have hi := idx_facts ⟨_, hlt⟩
    intro a
    match a with
    | ⟨0, _⟩ =>
      show win0_5.index ⟨_, hlt⟩ 0 * 512 ≤ (i 0).val ∧ (i 0).val < win0_5.index ⟨_, hlt⟩ 0 * 512 + 512
      rw [hi.2.2.2.2.2.2.2.2.2.2.1]
      dsimp only
      omega
    | ⟨1, _⟩ =>
      show win0_5.index ⟨_, hlt⟩ 1 * 512 ≤ (i 1).val ∧ (i 1).val < win0_5.index ⟨_, hlt⟩ 1 * 512 + 512
      rw [hi.2.2.2.2.2.2.2.2.2.2.2]
      dsimp only
      omega

/-- The result matrix with its rows split into [8, 512] is the specification's array. -/
theorem split_rows (c : Dev nD) :
    shapeCast S8x512x4096 (gmat m c) shapeCasts_S4096x4096_S8x512x4096
      = Cert.Spec.G (argX m c) (argW m c) (argBias m c) (argA m c) (argBt m c) := by
  funext i
  obtain ⟨b, s, n, rfl⟩ : ∃ (b : Fin 8) (s : Fin 512) (n : Fin 4096), i = ix3 b s n := ⟨i 0, i 1, i 2, eq_ix3 i⟩
  have hlt : b.val * 512 + s.val < 4096 := by have := b.isLt; have := s.isLt; omega
  rw [Cert.LibAxes.shapeCast_nc_abc_apply (gmat m c) shapeCasts_S4096x4096_S8x512x4096 b s n ⟨b.val * 512 + s.val, hlt⟩ rfl,
    Cert.Spec.G_apply]
  show rowEntry m c ⟨b.val * 512 + s.val, hlt⟩ n = _
  unfold rowEntry
  have eb : (⟨(b.val * 512 + s.val) / 512, by omega⟩ : Fin 8) = b := Fin.ext (by show (b.val * 512 + s.val) / 512 = b.val; have := s.isLt; omega)
  have es : (⟨(b.val * 512 + s.val) % 512, Nat.mod_lt _ (by decide)⟩ : Fin 512) = s := Fin.ext (by show (b.val * 512 + s.val) % 512 = s.val; have := s.isLt; omega)
  rw [eb, es]

end Cert.ReferenceIdeal.RefFinal

end
-- ==== Proof.RefValue.lean ====
/-
  The reference program's run, read: every weakly fair execution ends with the result array at the specification's
  function of the argument arrays and with the argument arrays unchanged. The result array is the last host line's
  reshape of the kernel's result matrix; the matrix comes from the kernel's blocks, the arguments from the frame.
-/
import proofs.«143460_g2000706549906588_pallasbulk_644_8_alg».proof.Proof.RefFinal
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.ReferenceIdeal.RefValue

open Cert.ReferenceIdeal Cert.ReferenceIdeal.Gen Cert.ReferenceIdeal.RefHost Cert.ReferenceIdeal.RefFinal

variable (m : (ℓ : Loc nD τ sig) → Buf (Elt Ideal) ℓ) (ρ : Dev nD → PrngReg)

/-- The result array after the host line that follows the kernel. -/
theorem tail_eq (c : Dev nD) :
    Pipeline.afterTail₀ cfgs (dats m) 0 (V0 m) [hostOps1] c main_v6
      = Cert.Spec.G (argX m c) (argW m c) (argBias m c) (argA m c) (argBt m c) := by
  unfold Pipeline.afterTail₀
  show StableHlo.after hostOps1 _ (Proc.devRef .tc main_v6) = _
  after_results
  have hw : (Pipeline.withArrays (cfgs 0).spec c (V0 m c) (fun w => (dats m 0 c).arrAt w (cfgs 0).N)
      (Proc.devRef .tc main_v5) : S4096x4096.Idx → EReal) = gmat m c :=
    (Pipeline.withArrays_arr spec0 launch0.win.arr_inj c _ _ 5).trans (final m c)
  exact (congrArg (fun a : S4096x4096.Idx → EReal => shapeCast S8x512x4096 a shapeCasts_S4096x4096_S8x512x4096) hw).trans (split_rows m c)

/-- THE RUN: the result at the specification, the arguments unchanged. -/
theorem run : θ_run (defs (F := Ideal)) (onTc (τ := τ) (main (F := Ideal))) ⟨m, fun _ => 0, ρ⟩ (fun r => ∀ c : Dev nD,
      r.2.mem ((c.tc : Thread nD τ).loc main_v6) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v6 (Pipeline.mem_restRefs_of main_v6 (by decide) (by decide))).trans (tail_eq m c),
      (((h c).2 main_arg0 (Pipeline.mem_restRefs_of main_arg0 (by decide) (by decide))).trans (W_main_arg0 m (dats m) c)),
      ((h c).1 2).trans ((((dats m) 0 c).arrAt_in 2 rfl _).trans ((A_eq m c 2).trans (V_main_arg1 m c))),
      ((h c).1 4).trans ((((dats m) 0 c).arrAt_in 4 rfl _).trans ((A_eq m c 4).trans (V_main_arg2 m c))),
      (((h c).2 main_arg3 (Pipeline.mem_restRefs_of main_arg3 (by decide) (by decide))).trans (W_main_arg3 m (dats m) c)),
      ((h c).1 3).trans ((((dats m) 0 c).arrAt_in 3 rfl _).trans ((A_eq m c 3).trans (V_main_arg4 m c)))⟩) (run_main m ρ)

end Cert.ReferenceIdeal.RefValue

end
-- ==== Proof.lean ====
/-
  The certificate of a rank-16 low-rank-update linear layer: y = x·W + (x·Aᵀ)·Bt + bias over 4096 rows and 4096
  columns, the rows given as an [8, 512] stack.

  The kernel computes, per 1024 × 512 output tile, the whole-length product x·W, the rank-16 correction from the
  projection x·Aᵀ (computed once per row tile into a carried buffer and reused along the row) and the bias, with
  operands passed through a narrower float format that is the identity on the extended reals. The reference projects
  on the host, then accumulates x·W over four consecutive blocks of 1024 of the contraction into a 512 × 512
  accumulator started at zero, and adds the correction and the bias on the last block.

  On the extended reals both are the one function of Spec.lean: a sum of 4096 terms taken whole, or as
  (((0 + S₀) + S₁) + S₂) + S₃ of its four quarters, is the same number by associativity of + alone; the factors are
  multiplied in the same order on both sides; so no finiteness of the inputs is needed and the precondition is not
  opened. The three frames are the generated ones; nothing was rewritten by the idealization, so its preservation
  claim is trivial; the algebraic claim puts the kernel's run (KernValue.lean) beside the reference's (RefValue.lean),
  both ending at Spec.G of arguments that agree.
-/
import proofs.«143460_g2000706549906588_pallasbulk_644_8_alg».proof.Defs
import proofs.«143460_g2000706549906588_pallasbulk_644_8_alg».proof.Proof.Gen.Kernel
import proofs.«143460_g2000706549906588_pallasbulk_644_8_alg».proof.Proof.Gen.Kernel.Frame
import proofs.«143460_g2000706549906588_pallasbulk_644_8_alg».proof.Proof.Gen.KernelIdeal
import proofs.«143460_g2000706549906588_pallasbulk_644_8_alg».proof.Proof.Gen.KernelIdeal.Frame
import proofs.«143460_g2000706549906588_pallasbulk_644_8_alg».proof.Proof.Gen.ReferenceIdeal
import proofs.«143460_g2000706549906588_pallasbulk_644_8_alg».proof.Proof.Gen.ReferenceIdeal.Frame
import proofs.«143460_g2000706549906588_pallasbulk_644_8_alg».proof.Proof.Gen.Pre_finite_inputs
import proofs.«143460_g2000706549906588_pallasbulk_644_8_alg».proof.Proof.KernValue
import proofs.«143460_g2000706549906588_pallasbulk_644_8_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization rewrote nothing. -/
theorem preserves : Cert.preserves_Kernel_KernelIdeal := trivial

/-- Both runs end at the specification's array of their own arguments, and the arguments agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
